-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128x7 : Shape := ⟨3, ![16384, 128, 7]⟩
abbrev S16384x128 : Shape := ⟨2, ![16384, 128]⟩
abbrev S16x5 : Shape := ⟨2, ![16, 5]⟩
abbrev S16 : Shape := ⟨1, ![16]⟩
abbrev S25x8 : Shape := ⟨2, ![25, 8]⟩
abbrev S_ : Shape := ⟨0, ![]⟩

class Facts : Prop where
  bcast_S_S16384x128x7 : S_.BroadcastsInDim S16384x128x7 (![] : Fin 0 → Fin S16384x128x7.rank)
  reducesTo_S16384x128x7_S_d0_1_2 : S16384x128x7.ReducesTo [0, 1, 2] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S16x5 : S_.BroadcastsInDim S16x5 (![] : Fin 0 → Fin S16x5.rank)
  reducesTo_S16x5_S_d0_1 : S16x5.ReducesTo [0, 1] S_
  bcast_S_S16 : S_.BroadcastsInDim S16 (![] : Fin 0 → Fin S16.rank)
  reducesTo_S16_S_d0 : S16.ReducesTo [0] S_
  bcast_S_S25x8 : S_.BroadcastsInDim S25x8 (![] : Fin 0 → Fin S25x8.rank)
  reducesTo_S25x8_S_d0_1 : S25x8.ReducesTo [0, 1] S_

variable [Facts]

def fn_part1 {F : FTy → Type} [FloatOps F] (main_arg4 : FVec F S25x8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S25x8 .f32 := Host.absf main_arg4
  let main_cst_6 : FVec F S_ .f32 := constant S_ .f32 0x7F800000#32
  let main_v20 : FVec F S25x8 .f32 := broadcastInDim S25x8 ![] bcast_S_S25x8 main_cst_6
  let main_v21 : IVec S25x8 1 := cmpf .olt main_v19 main_v20
  let main_c_7 : IVec S_ 1 := constantI S_ 1 1#1
  let main_v22 : IVec S_ 1 := (fun x v => Host.reduce IntOp.andi x v reducesTo_S25x8_S_d0_1 h_S_) main_v21 main_c_7
  let main_v23 : IVec S_ 1 := andi main_v18 main_v22
  main_v23

def fn {F : FTy → Type} [FloatOps F] (main_arg0 : FVec F S16384x128x7 .f32) (main_arg1 : FVec F S16384x128 .f32) (main_arg2 : FVec F S16x5 .f32) (main_arg3 : FVec F S16 .f32) (main_arg4 : FVec F S25x8 .f32) : IVec S_ 1 :=
  let main_v0 : FVec F S16384x128x7 .f32 := Host.absf main_arg0
  let main_cst : FVec F S_ .f32 := constant S_ .f32 0x7F800000#32
  let main_v1 : FVec F S16384x128x7 .f32 := broadcastInDim S16384x128x7 ![] bcast_S_S16384x128x7 main_cst
  let main_v2 : IVec S16384x128x7 1 := cmpf .olt main_v0 main_v1
  let main_c : IVec S_ 1 := constantI S_ 1 1#1
  let main_v3 : IVec S_ 1 := (fun x v => Host.reduce IntOp.andi x v reducesTo_S16384x128x7_S_d0_1_2 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16x5 .f32 := Host.absf main_arg2
  let main_cst_2 : FVec F S_ .f32 := constant S_ .f32 0x7F800000#32
  let main_v10 : FVec F S16x5 .f32 := broadcastInDim S16x5 ![] bcast_S_S16x5 main_cst_2
  let main_v11 : IVec S16x5 1 := cmpf .olt main_v9 main_v10
  let main_c_3 : IVec S_ 1 := constantI S_ 1 1#1
  let main_v12 : IVec S_ 1 := (fun x v => Host.reduce IntOp.andi x v reducesTo_S16x5_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Kernel.lean ====
abbrev S16384x128x7 : Shape := ⟨3, ![16384, 128, 7]⟩
abbrev S16384x128 : Shape := ⟨2, ![16384, 128]⟩
abbrev S16x5 : Shape := ⟨2, ![16, 5]⟩
abbrev S16 : Shape := ⟨1, ![16]⟩
abbrev S25x8 : Shape := ⟨2, ![25, 8]⟩
abbrev S16384x7x128 : Shape := ⟨3, ![16384, 7, 128]⟩
abbrev S16384x24x128 : Shape := ⟨3, ![16384, 24, 128]⟩
abbrev S512x7x128 : Shape := ⟨3, ![512, 7, 128]⟩
abbrev S512x128 : Shape := ⟨2, ![512, 128]⟩
abbrev S512x24x128 : Shape := ⟨3, ![512, 24, 128]⟩
abbrev S512x1x128 : Shape := ⟨3, ![512, 1, 128]⟩
abbrev S1 : Shape := ⟨1, ![1]⟩
abbrev S1x1 : Shape := ⟨2, ![1, 1]⟩
abbrev S16384x128x24 : Shape := ⟨3, ![16384, 128, 24]⟩

abbrev nBuf : Space → Nat
  | .hbm => 8
  | .vmem => 9
  | .smem => 0
  | _ => 0

abbrev bufTy : (tb : Table) → Fin (tcTables nBuf tb) → BufTy
  | .hbm, ⟨0, _⟩ => ⟨S16384x128x7, .f32⟩
  | .hbm, ⟨1, _⟩ => ⟨S16384x128, .f32⟩
  | .hbm, ⟨2, _⟩ => ⟨S16x5, .f32⟩
  | .hbm, ⟨3, _⟩ => ⟨S16, .f32⟩
  | .hbm, ⟨4, _⟩ => ⟨S25x8, .f32⟩
  | .hbm, ⟨5, _⟩ => ⟨S16384x7x128, .f32⟩
  | .hbm, ⟨6, _⟩ => ⟨S16384x24x128, .f32⟩
  | .hbm, ⟨7, _⟩ => ⟨S16384x128x24, .f32⟩
  | .local _ .vmem, ⟨0, _⟩ => ⟨S512x7x128, .f32⟩
  | .local _ .vmem, ⟨1, _⟩ => ⟨S512x7x128, .f32⟩
  | .local _ .vmem, ⟨2, _⟩ => ⟨S512x128, .f32⟩
  | .local _ .vmem, ⟨3, _⟩ => ⟨S512x128, .f32⟩
  | .local _ .vmem, ⟨4, _⟩ => ⟨S16x5, .f32⟩
  | .local _ .vmem, ⟨5, _⟩ => ⟨S16, .f32⟩
  | .local _ .vmem, ⟨6, _⟩ => ⟨S25x8, .f32⟩
  | .local _ .vmem, ⟨7, _⟩ => ⟨S512x24x128, .f32⟩
  | .local _ .vmem, ⟨8, _⟩ => ⟨S512x24x128, .f32⟩
  | _, _ => ⟨S16384x128x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x7x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S25x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x24x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S16384x128x7_S16384x7x128_0_2_1 : S16384x128x7.Transposes [0, 2, 1] S16384x7x128
  inb_S512x128_S512x128_0_0 : ∀ a, (![0, 0] : Fin 2 → Nat) a + S512x128.size a ≤ S512x128.size a
  h_S512x128 : 0 < S512x128.numel
  inb_S512x7x128_S512x1x128_0_0_0 : ∀ a, (![0, 0, 0] : Fin 3 → Nat) a + S512x1x128.size a ≤ S512x7x128.size a
  h_S512x1x128 : 0 < S512x1x128.numel
  shapeCasts_S512x1x128_S512x128 : S512x1x128.ShapeCasts S512x128
  inb_S512x7x128_S512x1x128_0_1_0 : ∀ a, (![0, 1, 0] : Fin 3 → Nat) a + S512x1x128.size a ≤ S512x7x128.size a
  inb_S512x7x128_S512x1x128_0_2_0 : ∀ a, (![0, 2, 0] : Fin 3 → Nat) a + S512x1x128.size a ≤ S512x7x128.size a
  inb_S512x7x128_S512x1x128_0_3_0 : ∀ a, (![0, 3, 0] : Fin 3 → Nat) a + S512x1x128.size a ≤ S512x7x128.size a
  inb_S512x7x128_S512x1x128_0_4_0 : ∀ a, (![0, 4, 0] : Fin 3 → Nat) a + S512x1x128.size a ≤ S512x7x128.size a
  inb_S512x7x128_S512x1x128_0_5_0 : ∀ a, (![0, 5, 0] : Fin 3 → Nat) a + S512x1x128.size a ≤ S512x7x128.size a
  inb_S16_S1_0 : ∀ a, (![0] : Fin 1 → Nat) a + S1.size a ≤ S16.size a
  h_S1 : 0 < S1.numel
  inpos_S1_p0 : ∀ a, (![0] : Fin 1 → Nat) a < S1.size a
  inb_S16x5_S1x1_0_0 : ∀ a, (![0, 0] : Fin 2 → Nat) a + S1x1.size a ≤ S16x5.size a
  h_S1x1 : 0 < S1x1.numel
  inpos_S1x1_p0_0 : ∀ a, (![0, 0] : Fin 2 → Nat) a < S1x1.size a
  inb_S16x5_S1x1_0_1 : ∀ a, (![0, 1] : Fin 2 → Nat) a + S1x1.size a ≤ S16x5.size a
  inb_S16x5_S1x1_0_2 : ∀ a, (![0, 2] : Fin 2 → Nat) a + S1x1.size a ≤ S16x5.size a
  inb_S16x5_S1x1_0_3 : ∀ a, (![0, 3] : Fin 2 → Nat) a + S1x1.size a ≤ S16x5.size a
  inb_S16x5_S1x1_0_4 : ∀ a, (![0, 4] : Fin 2 → Nat) a + S1x1.size a ≤ S16x5.size a
  inb_S512x24x128_S512x1x128_0_0_0 : ∀ a, (![0, 0, 0] : Fin 3 → Nat) a + S512x1x128.size a ≤ S512x24x128.size a
  shapeCasts_S512x128_S512x1x128 : S512x128.ShapeCasts S512x1x128
  inb_S16_S1_1 : ∀ a, (![1] : Fin 1 → Nat) a + S1.size a ≤ S16.size a
  inb_S16x5_S1x1_1_0 : ∀ a, (![1, 0] : Fin 2 → Nat) a + S1x1.size a ≤ S16x5.size a
  inb_S16x5_S1x1_1_1 : ∀ a, (![1, 1] : Fin 2 → Nat) a + S1x1.size a ≤ S16x5.size a
  inb_S16x5_S1x1_1_2 : ∀ a, (![1, 2] : Fin 2 → Nat) a + S1x1.size a ≤ S16x5.size a
  inb_S16x5_S1x1_1_3 : ∀ a, (![1, 3] : Fin 2 → Nat) a + S1x1.size a ≤ S16x5.size a
  inb_S16x5_S1x1_1_4 : ∀ a, (![1, 4] : Fin 2 → Nat) a + S1x1.size a ≤ S16x5.size a
  inb_S512x24x128_S512x1x128_0_1_0 : ∀ a, (![0, 1, 0] : Fin 3 → Nat) a + S512x1x128.size a ≤ S512x24x128.size a
  inb_S16_S1_2 : ∀ a, (![2] : Fin 1 → Nat) a + S1.size a ≤ S16.size a
  inb_S16x5_S1x1_2_0 : ∀ a, (![2, 0] : Fin 2 → Nat) a + S1x1.size a ≤ S16x5.size a
  inb_S16x5_S1x1_2_1 : ∀ a, (![2, 1] : Fin 2 → Nat) a + S1x1.size a ≤ S16x5.size a
  inb_S16x5_S1x1_2_2 : ∀ a, (![2, 2] : Fin 2 → Nat) a + S1x1.size a ≤ S16x5.size a
  inb_S16x5_S1x1_2_3 : ∀ a, (![2, 3] : Fin 2 → Nat) a + S1x1.size a ≤ S16x5.size a
  inb_S16x5_S1x1_2_4 : ∀ a, (![2, 4] : Fin 2 → Nat) a + S1x1.size a ≤ S16x5.size a
  inb_S512x24x128_S512x1x128_0_2_0 : ∀ a, (![0, 2, 0] : Fin 3 → Nat) a + S512x1x128.size a ≤ S512x24x128.size a
  inb_S16_S1_3 : ∀ a, (![3] : Fin 1 → Nat) a + S1.size a ≤ S16.size a
  inb_S16x5_S1x1_3_0 : ∀ a, (![3, 0] : Fin 2 → Nat) a + S1x1.size a ≤ S16x5.size a
  inb_S16x5_S1x1_3_1 : ∀ a, (![3, 1] : Fin 2 → Nat) a + S1x1.size a ≤ S16x5.size a
  inb_S16x5_S1x1_3_2 : ∀ a, (![3, 2] : Fin 2 → Nat) a + S1x1.size a ≤ S16x5.size a
  inb_S16x5_S1x1_3_3 : ∀ a, (![3, 3] : Fin 2 → Nat) a + S1x1.size a ≤ S16x5.size a
  inb_S16x5_S1x1_3_4 : ∀ a, (![3, 4] : Fin 2 → Nat) a + S1x1.size a ≤ S16x5.size a
  inb_S512x24x128_S512x1x128_0_3_0 : ∀ a, (![0, 3, 0] : Fin 3 → Nat) a + S512x1x128.size a ≤ S512x24x128.size a
  inb_S16_S1_4 : ∀ a, (![4] : Fin 1 → Nat) a + S1.size a ≤ S16.size a
  inb_S16x5_S1x1_4_0 : ∀ a, (![4, 0] : Fin 2 → Nat) a + S1x1.size a ≤ S16x5.size a
  inb_S16x5_S1x1_4_1 : ∀ a, (![4, 1] : Fin 2 → Nat) a + S1x1.size a ≤ S16x5.size a
  inb_S16x5_S1x1_4_2 : ∀ a, (![4, 2] : Fin 2 → Nat) a + S1x1.size a ≤ S16x5.size a
  inb_S16x5_S1x1_4_3 : ∀ a, (![4, 3] : Fin 2 → Nat) a + S1x1.size a ≤ S16x5.size a
  inb_S16x5_S1x1_4_4 : ∀ a, (![4, 4] : Fin 2 → Nat) a + S1x1.size a ≤ S16x5.size a
  inb_S512x24x128_S512x1x128_0_4_0 : ∀ a, (![0, 4, 0] : Fin 3 → Nat) a + S512x1x128.size a ≤ S512x24x128.size a
  inb_S16_S1_5 : ∀ a, (![5] : Fin 1 → Nat) a + S1.size a ≤ S16.size a
  inb_S16x5_S1x1_5_0 : ∀ a, (![5, 0] : Fin 2 → Nat) a + S1x1.size a ≤ S16x5.size a
  inb_S16x5_S1x1_5_1 : ∀ a, (![5, 1] : Fin 2 → Nat) a + S1x1.size a ≤ S16x5.size a
  inb_S16x5_S1x1_5_2 : ∀ a, (![5, 2] : Fin 2 → Nat) a + S1x1.size a ≤ S16x5.size a
  inb_S16x5_S1x1_5_3 : ∀ a, (![5, 3] : Fin 2 → Nat) a + S1x1.size a ≤ S16x5.size a
  inb_S16x5_S1x1_5_4 : ∀ a, (![5, 4] : Fin 2 → Nat) a + S1x1.size a ≤ S16x5.size a
  inb_S512x24x128_S512x1x128_0_5_0 : ∀ a, (![0, 5, 0] : Fin 3 → Nat) a + S512x1x128.size a ≤ S512x24x128.size a
  inb_S16_S1_6 : ∀ a, (![6] : Fin 1 → Nat) a + S1.size a ≤ S16.size a
  inb_S16x5_S1x1_6_0 : ∀ a, (![6, 0] : Fin 2 → Nat) a + S1x1.size a ≤ S16x5.size a
  inb_S16x5_S1x1_6_1 : ∀ a, (![6, 1] : Fin 2 → Nat) a + S1x1.size a ≤ S16x5.size a
  inb_S16x5_S1x1_6_2 : ∀ a, (![6, 2] : Fin 2 → Nat) a + S1x1.size a ≤ S16x5.size a
  inb_S16x5_S1x1_6_3 : ∀ a, (![6, 3] : Fin 2 → Nat) a + S1x1.size a ≤ S16x5.size a
  inb_S16x5_S1x1_6_4 : ∀ a, (![6, 4] : Fin 2 → Nat) a + S1x1.size a ≤ S16x5.size a
  inb_S512x24x128_S512x1x128_0_6_0 : ∀ a, (![0, 6, 0] : Fin 3 → Nat) a + S512x1x128.size a ≤ S512x24x128.size a
  inb_S16_S1_7 : ∀ a, (![7] : Fin 1 → Nat) a + S1.size a ≤ S16.size a
  inb_S16x5_S1x1_7_0 : ∀ a, (![7, 0] : Fin 2 → Nat) a + S1x1.size a ≤ S16x5.size a
  inb_S16x5_S1x1_7_1 : ∀ a, (![7, 1] : Fin 2 → Nat) a + S1x1.size a ≤ S16x5.size a
  inb_S16x5_S1x1_7_2 : ∀ a, (![7, 2] : Fin 2 → Nat) a + S1x1.size a ≤ S16x5.size a
  inb_S16x5_S1x1_7_3 : ∀ a, (![7, 3] : Fin 2 → Nat) a + S1x1.size a ≤ S16x5.size a
  inb_S16x5_S1x1_7_4 : ∀ a, (![7, 4] : Fin 2 → Nat) a + S1x1.size a ≤ S16x5.size a
  inb_S512x24x128_S512x1x128_0_7_0 : ∀ a, (![0, 7, 0] : Fin 3 → Nat) a + S512x1x128.size a ≤ S512x24x128.size a
  inb_S16_S1_8 : ∀ a, (![8] : Fin 1 → Nat) a + S1.size a ≤ S16.size a
  inb_S16x5_S1x1_8_0 : ∀ a, (![8, 0] : Fin 2 → Nat) a + S1x1.size a ≤ S16x5.size a
  inb_S16x5_S1x1_8_1 : ∀ a, (![8, 1] : Fin 2 → Nat) a + S1x1.size a ≤ S16x5.size a
  inb_S16x5_S1x1_8_2 : ∀ a, (![8, 2] : Fin 2 → Nat) a + S1x1.size a ≤ S16x5.size a
  inb_S16x5_S1x1_8_3 : ∀ a, (![8, 3] : Fin 2 → Nat) a + S1x1.size a ≤ S16x5.size a
  inb_S16x5_S1x1_8_4 : ∀ a, (![8, 4] : Fin 2 → Nat) a + S1x1.size a ≤ S16x5.size a
  inb_S512x24x128_S512x1x128_0_8_0 : ∀ a, (![0, 8, 0] : Fin 3 → Nat) a + S512x1x128.size a ≤ S512x24x128.size a
  inb_S16_S1_9 : ∀ a, (![9] : Fin 1 → Nat) a + S1.size a ≤ S16.size a
  inb_S16x5_S1x1_9_0 : ∀ a, (![9, 0] : Fin 2 → Nat) a + S1x1.size a ≤ S16x5.size a
  inb_S16x5_S1x1_9_1 : ∀ a, (![9, 1] : Fin 2 → Nat) a + S1x1.size a ≤ S16x5.size a
  inb_S16x5_S1x1_9_2 : ∀ a, (![9, 2] : Fin 2 → Nat) a + S1x1.size a ≤ S16x5.size a
  inb_S16x5_S1x1_9_3 : ∀ a, (![9, 3] : Fin 2 → Nat) a + S1x1.size a ≤ S16x5.size a
  inb_S16x5_S1x1_9_4 : ∀ a, (![9, 4] : Fin 2 → Nat) a + S1x1.size a ≤ S16x5.size a
  inb_S512x24x128_S512x1x128_0_9_0 : ∀ a, (![0, 9, 0] : Fin 3 → Nat) a + S512x1x128.size a ≤ S512x24x128.size a
  inb_S16_S1_10 : ∀ a, (![10] : Fin 1 → Nat) a + S1.size a ≤ S16.size a
  inb_S16x5_S1x1_10_0 : ∀ a, (![10, 0] : Fin 2 → Nat) a + S1x1.size a ≤ S16x5.size a
  inb_S16x5_S1x1_10_1 : ∀ a, (![10, 1] : Fin 2 → Nat) a + S1x1.size a ≤ S16x5.size a
  inb_S16x5_S1x1_10_2 : ∀ a, (![10, 2] : Fin 2 → Nat) a + S1x1.size a ≤ S16x5.size a
  inb_S16x5_S1x1_10_3 : ∀ a, (![10, 3] : Fin 2 → Nat) a + S1x1.size a ≤ S16x5.size a
  inb_S16x5_S1x1_10_4 : ∀ a, (![10, 4] : Fin 2 → Nat) a + S1x1.size a ≤ S16x5.size a
  inb_S512x24x128_S512x1x128_0_10_0 : ∀ a, (![0, 10, 0] : Fin 3 → Nat) a + S512x1x128.size a ≤ S512x24x128.size a
  inb_S16_S1_11 : ∀ a, (![11] : Fin 1 → Nat) a + S1.size a ≤ S16.size a
  inb_S16x5_S1x1_11_0 : ∀ a, (![11, 0] : Fin 2 → Nat) a + S1x1.size a ≤ S16x5.size a
  inb_S16x5_S1x1_11_1 : ∀ a, (![11, 1] : Fin 2 → Nat) a + S1x1.size a ≤ S16x5.size a
  inb_S16x5_S1x1_11_2 : ∀ a, (![11, 2] : Fin 2 → Nat) a + S1x1.size a ≤ S16x5.size a
  inb_S16x5_S1x1_11_3 : ∀ a, (![11, 3] : Fin 2 → Nat) a + S1x1.size a ≤ S16x5.size a
  inb_S16x5_S1x1_11_4 : ∀ a, (![11, 4] : Fin 2 → Nat) a + S1x1.size a ≤ S16x5.size a
  inb_S512x24x128_S512x1x128_0_11_0 : ∀ a, (![0, 11, 0] : Fin 3 → Nat) a + S512x1x128.size a ≤ S512x24x128.size a
  inb_S16_S1_12 : ∀ a, (![12] : Fin 1 → Nat) a + S1.size a ≤ S16.size a
  inb_S16x5_S1x1_12_0 : ∀ a, (![12, 0] : Fin 2 → Nat) a + S1x1.size a ≤ S16x5.size a
  inb_S16x5_S1x1_12_1 : ∀ a, (![12, 1] : Fin 2 → Nat) a + S1x1.size a ≤ S16x5.size a
  inb_S16x5_S1x1_12_2 : ∀ a, (![12, 2] : Fin 2 → Nat) a + S1x1.size a ≤ S16x5.size a
  inb_S16x5_S1x1_12_3 : ∀ a, (![12, 3] : Fin 2 → Nat) a + S1x1.size a ≤ S16x5.size a
  inb_S16x5_S1x1_12_4 : ∀ a, (![12, 4] : Fin 2 → Nat) a + S1x1.size a ≤ S16x5.size a
  inb_S512x24x128_S512x1x128_0_12_0 : ∀ a, (![0, 12, 0] : Fin 3 → Nat) a + S512x1x128.size a ≤ S512x24x128.size a
  inb_S16_S1_13 : ∀ a, (![13] : Fin 1 → Nat) a + S1.size a ≤ S16.size a
  inb_S16x5_S1x1_13_0 : ∀ a, (![13, 0] : Fin 2 → Nat) a + S1x1.size a ≤ S16x5.size a
  inb_S16x5_S1x1_13_1 : ∀ a, (![13, 1] : Fin 2 → Nat) a + S1x1.size a ≤ S16x5.size a
  inb_S16x5_S1x1_13_2 : ∀ a, (![13, 2] : Fin 2 → Nat) a + S1x1.size a ≤ S16x5.size a
  inb_S16x5_S1x1_13_3 : ∀ a, (![13, 3] : Fin 2 → Nat) a + S1x1.size a ≤ S16x5.size a
  inb_S16x5_S1x1_13_4 : ∀ a, (![13, 4] : Fin 2 → Nat) a + S1x1.size a ≤ S16x5.size a
  inb_S512x24x128_S512x1x128_0_13_0 : ∀ a, (![0, 13, 0] : Fin 3 → Nat) a + S512x1x128.size a ≤ S512x24x128.size a
  inb_S16_S1_14 : ∀ a, (![14] : Fin 1 → Nat) a + S1.size a ≤ S16.size a
  inb_S16x5_S1x1_14_0 : ∀ a, (![14, 0] : Fin 2 → Nat) a + S1x1.size a ≤ S16x5.size a
  inb_S16x5_S1x1_14_1 : ∀ a, (![14, 1] : Fin 2 → Nat) a + S1x1.size a ≤ S16x5.size a
  inb_S16x5_S1x1_14_2 : ∀ a, (![14, 2] : Fin 2 → Nat) a + S1x1.size a ≤ S16x5.size a
  inb_S16x5_S1x1_14_3 : ∀ a, (![14, 3] : Fin 2 → Nat) a + S1x1.size a ≤ S16x5.size a
  inb_S16x5_S1x1_14_4 : ∀ a, (![14, 4] : Fin 2 → Nat) a + S1x1.size a ≤ S16x5.size a
  inb_S512x24x128_S512x1x128_0_14_0 : ∀ a, (![0, 14, 0] : Fin 3 → Nat) a + S512x1x128.size a ≤ S512x24x128.size a
  inb_S16_S1_15 : ∀ a, (![15] : Fin 1 → Nat) a + S1.size a ≤ S16.size a
  inb_S16x5_S1x1_15_0 : ∀ a, (![15, 0] : Fin 2 → Nat) a + S1x1.size a ≤ S16x5.size a
  inb_S16x5_S1x1_15_1 : ∀ a, (![15, 1] : Fin 2 → Nat) a + S1x1.size a ≤ S16x5.size a
  inb_S16x5_S1x1_15_2 : ∀ a, (![15, 2] : Fin 2 → Nat) a + S1x1.size a ≤ S16x5.size a
  inb_S16x5_S1x1_15_3 : ∀ a, (![15, 3] : Fin 2 → Nat) a + S1x1.size a ≤ S16x5.size a
  inb_S16x5_S1x1_15_4 : ∀ a, (![15, 4] : Fin 2 → Nat) a + S1x1.size a ≤ S16x5.size a
  inb_S512x24x128_S512x1x128_0_15_0 : ∀ a, (![0, 15, 0] : Fin 3 → Nat) a + S512x1x128.size a ≤ S512x24x128.size a
  natLt_1_32 : 1 < 32
  inb_S25x8_S1x1_0_0 : ∀ a, (![0, 0] : Fin 2 → Nat) a + S1x1.size a ≤ S25x8.size a
  inb_S25x8_S1x1_1_0 : ∀ a, (![1, 0] : Fin 2 → Nat) a + S1x1.size a ≤ S25x8.size a
  inb_S25x8_S1x1_2_0 : ∀ a, (![2, 0] : Fin 2 → Nat) a + S1x1.size a ≤ S25x8.size a
  inb_S25x8_S1x1_3_0 : ∀ a, (![3, 0] : Fin 2 → Nat) a + S1x1.size a ≤ S25x8.size a
  inb_S25x8_S1x1_4_0 : ∀ a, (![4, 0] : Fin 2 → Nat) a + S1x1.size a ≤ S25x8.size a
  inb_S25x8_S1x1_5_0 : ∀ a, (![5, 0] : Fin 2 → Nat) a + S1x1.size a ≤ S25x8.size a
  inb_S25x8_S1x1_6_0 : ∀ a, (![6, 0] : Fin 2 → Nat) a + S1x1.size a ≤ S25x8.size a
  inb_S25x8_S1x1_7_0 : ∀ a, (![7, 0] : Fin 2 → Nat) a + S1x1.size a ≤ S25x8.size a
  inb_S25x8_S1x1_8_0 : ∀ a, (![8, 0] : Fin 2 → Nat) a + S1x1.size a ≤ S25x8.size a
  inb_S25x8_S1x1_9_0 : ∀ a, (![9, 0] : Fin 2 → Nat) a + S1x1.size a ≤ S25x8.size a
  inb_S25x8_S1x1_10_0 : ∀ a, (![10, 0] : Fin 2 → Nat) a + S1x1.size a ≤ S25x8.size a
  inb_S25x8_S1x1_11_0 : ∀ a, (![11, 0] : Fin 2 → Nat) a + S1x1.size a ≤ S25x8.size a
  inb_S25x8_S1x1_12_0 : ∀ a, (![12, 0] : Fin 2 → Nat) a + S1x1.size a ≤ S25x8.size a
  inb_S25x8_S1x1_13_0 : ∀ a, (![13, 0] : Fin 2 → Nat) a + S1x1.size a ≤ S25x8.size a
  inb_S25x8_S1x1_14_0 : ∀ a, (![14, 0] : Fin 2 → Nat) a + S1x1.size a ≤ S25x8.size a
  inb_S25x8_S1x1_15_0 : ∀ a, (![15, 0] : Fin 2 → Nat) a + S1x1.size a ≤ S25x8.size a
  inb_S25x8_S1x1_16_0 : ∀ a, (![16, 0] : Fin 2 → Nat) a + S1x1.size a ≤ S25x8.size a
  inb_S25x8_S1x1_17_0 : ∀ a, (![17, 0] : Fin 2 → Nat) a + S1x1.size a ≤ S25x8.size a
  inb_S25x8_S1x1_18_0 : ∀ a, (![18, 0] : Fin 2 → Nat) a + S1x1.size a ≤ S25x8.size a
  inb_S25x8_S1x1_19_0 : ∀ a, (![19, 0] : Fin 2 → Nat) a + S1x1.size a ≤ S25x8.size a
  inb_S25x8_S1x1_20_0 : ∀ a, (![20, 0] : Fin 2 → Nat) a + S1x1.size a ≤ S25x8.size a
  inb_S25x8_S1x1_21_0 : ∀ a, (![21, 0] : Fin 2 → Nat) a + S1x1.size a ≤ S25x8.size a
  inb_S25x8_S1x1_22_0 : ∀ a, (![22, 0] : Fin 2 → Nat) a + S1x1.size a ≤ S25x8.size a
  inb_S25x8_S1x1_23_0 : ∀ a, (![23, 0] : Fin 2 → Nat) a + S1x1.size a ≤ S25x8.size a
  inb_S25x8_S1x1_24_0 : ∀ a, (![24, 0] : Fin 2 → Nat) a + S1x1.size a ≤ S25x8.size a
  inb_S512x24x128_S512x1x128_0_16_0 : ∀ a, (![0, 16, 0] : Fin 3 → Nat) a + S512x1x128.size a ≤ S512x24x128.size a
  inb_S25x8_S1x1_0_1 : ∀ a, (![0, 1] : Fin 2 → Nat) a + S1x1.size a ≤ S25x8.size a
  inb_S25x8_S1x1_1_1 : ∀ a, (![1, 1] : Fin 2 → Nat) a + S1x1.size a ≤ S25x8.size a
  inb_S25x8_S1x1_2_1 : ∀ a, (![2, 1] : Fin 2 → Nat) a + S1x1.size a ≤ S25x8.size a
  inb_S25x8_S1x1_3_1 : ∀ a, (![3, 1] : Fin 2 → Nat) a + S1x1.size a ≤ S25x8.size a
  inb_S25x8_S1x1_4_1 : ∀ a, (![4, 1] : Fin 2 → Nat) a + S1x1.size a ≤ S25x8.size a
  inb_S25x8_S1x1_5_1 : ∀ a, (![5, 1] : Fin 2 → Nat) a + S1x1.size a ≤ S25x8.size a
  inb_S25x8_S1x1_6_1 : ∀ a, (![6, 1] : Fin 2 → Nat) a + S1x1.size a ≤ S25x8.size a
  inb_S25x8_S1x1_7_1 : ∀ a, (![7, 1] : Fin 2 → Nat) a + S1x1.size a ≤ S25x8.size a
  inb_S25x8_S1x1_8_1 : ∀ a, (![8, 1] : Fin 2 → Nat) a + S1x1.size a ≤ S25x8.size a
  inb_S25x8_S1x1_9_1 : ∀ a, (![9, 1] : Fin 2 → Nat) a + S1x1.size a ≤ S25x8.size a
  inb_S25x8_S1x1_10_1 : ∀ a, (![10, 1] : Fin 2 → Nat) a + S1x1.size a ≤ S25x8.size a
  inb_S25x8_S1x1_11_1 : ∀ a, (![11, 1] : Fin 2 → Nat) a + S1x1.size a ≤ S25x8.size a
  inb_S25x8_S1x1_12_1 : ∀ a, (![12, 1] : Fin 2 → Nat) a + S1x1.size a ≤ S25x8.size a
  inb_S25x8_S1x1_13_1 : ∀ a, (![13, 1] : Fin 2 → Nat) a + S1x1.size a ≤ S25x8.size a
  inb_S25x8_S1x1_14_1 : ∀ a, (![14, 1] : Fin 2 → Nat) a + S1x1.size a ≤ S25x8.size a
  inb_S25x8_S1x1_15_1 : ∀ a, (![15, 1] : Fin 2 → Nat) a + S1x1.size a ≤ S25x8.size a
  inb_S25x8_S1x1_16_1 : ∀ a, (![16, 1] : Fin 2 → Nat) a + S1x1.size a ≤ S25x8.size a
  inb_S25x8_S1x1_17_1 : ∀ a, (![17, 1] : Fin 2 → Nat) a + S1x1.size a ≤ S25x8.size a
  inb_S25x8_S1x1_18_1 : ∀ a, (![18, 1] : Fin 2 → Nat) a + S1x1.size a ≤ S25x8.size a
  inb_S25x8_S1x1_19_1 : ∀ a, (![19, 1] : Fin 2 → Nat) a + S1x1.size a ≤ S25x8.size a
  inb_S25x8_S1x1_20_1 : ∀ a, (![20, 1] : Fin 2 → Nat) a + S1x1.size a ≤ S25x8.size a
  inb_S25x8_S1x1_21_1 : ∀ a, (![21, 1] : Fin 2 → Nat) a + S1x1.size a ≤ S25x8.size a
  inb_S25x8_S1x1_22_1 : ∀ a, (![22, 1] : Fin 2 → Nat) a + S1x1.size a ≤ S25x8.size a
  inb_S25x8_S1x1_23_1 : ∀ a, (![23, 1] : Fin 2 → Nat) a + S1x1.size a ≤ S25x8.size a
  inb_S25x8_S1x1_24_1 : ∀ a, (![24, 1] : Fin 2 → Nat) a + S1x1.size a ≤ S25x8.size a
  inb_S512x24x128_S512x1x128_0_17_0 : ∀ a, (![0, 17, 0] : Fin 3 → Nat) a + S512x1x128.size a ≤ S512x24x128.size a
  inb_S25x8_S1x1_0_2 : ∀ a, (![0, 2] : Fin 2 → Nat) a + S1x1.size a ≤ S25x8.size a
  inb_S25x8_S1x1_1_2 : ∀ a, (![1, 2] : Fin 2 → Nat) a + S1x1.size a ≤ S25x8.size a
  inb_S25x8_S1x1_2_2 : ∀ a, (![2, 2] : Fin 2 → Nat) a + S1x1.size a ≤ S25x8.size a
  inb_S25x8_S1x1_3_2 : ∀ a, (![3, 2] : Fin 2 → Nat) a + S1x1.size a ≤ S25x8.size a
  inb_S25x8_S1x1_4_2 : ∀ a, (![4, 2] : Fin 2 → Nat) a + S1x1.size a ≤ S25x8.size a
  inb_S25x8_S1x1_5_2 : ∀ a, (![5, 2] : Fin 2 → Nat) a + S1x1.size a ≤ S25x8.size a
  inb_S25x8_S1x1_6_2 : ∀ a, (![6, 2] : Fin 2 → Nat) a + S1x1.size a ≤ S25x8.size a
  inb_S25x8_S1x1_7_2 : ∀ a, (![7, 2] : Fin 2 → Nat) a + S1x1.size a ≤ S25x8.size a
  inb_S25x8_S1x1_8_2 : ∀ a, (![8, 2] : Fin 2 → Nat) a + S1x1.size a ≤ S25x8.size a
  inb_S25x8_S1x1_9_2 : ∀ a, (![9, 2] : Fin 2 → Nat) a + S1x1.size a ≤ S25x8.size a
  inb_S25x8_S1x1_10_2 : ∀ a, (![10, 2] : Fin 2 → Nat) a + S1x1.size a ≤ S25x8.size a
  inb_S25x8_S1x1_11_2 : ∀ a, (![11, 2] : Fin 2 → Nat) a + S1x1.size a ≤ S25x8.size a
  inb_S25x8_S1x1_12_2 : ∀ a, (![12, 2] : Fin 2 → Nat) a + S1x1.size a ≤ S25x8.size a
  inb_S25x8_S1x1_13_2 : ∀ a, (![13, 2] : Fin 2 → Nat) a + S1x1.size a ≤ S25x8.size a
  inb_S25x8_S1x1_14_2 : ∀ a, (![14, 2] : Fin 2 → Nat) a + S1x1.size a ≤ S25x8.size a
  inb_S25x8_S1x1_15_2 : ∀ a, (![15, 2] : Fin 2 → Nat) a + S1x1.size a ≤ S25x8.size a
  inb_S25x8_S1x1_16_2 : ∀ a, (![16, 2] : Fin 2 → Nat) a + S1x1.size a ≤ S25x8.size a
  inb_S25x8_S1x1_17_2 : ∀ a, (![17, 2] : Fin 2 → Nat) a + S1x1.size a ≤ S25x8.size a
  inb_S25x8_S1x1_18_2 : ∀ a, (![18, 2] : Fin 2 → Nat) a + S1x1.size a ≤ S25x8.size a
  inb_S25x8_S1x1_19_2 : ∀ a, (![19, 2] : Fin 2 → Nat) a + S1x1.size a ≤ S25x8.size a
  inb_S25x8_S1x1_20_2 : ∀ a, (![20, 2] : Fin 2 → Nat) a + S1x1.size a ≤ S25x8.size a
  inb_S25x8_S1x1_21_2 : ∀ a, (![21, 2] : Fin 2 → Nat) a + S1x1.size a ≤ S25x8.size a
  inb_S25x8_S1x1_22_2 : ∀ a, (![22, 2] : Fin 2 → Nat) a + S1x1.size a ≤ S25x8.size a
  inb_S25x8_S1x1_23_2 : ∀ a, (![23, 2] : Fin 2 → Nat) a + S1x1.size a ≤ S25x8.size a
  inb_S25x8_S1x1_24_2 : ∀ a, (![24, 2] : Fin 2 → Nat) a + S1x1.size a ≤ S25x8.size a
  inb_S512x24x128_S512x1x128_0_18_0 : ∀ a, (![0, 18, 0] : Fin 3 → Nat) a + S512x1x128.size a ≤ S512x24x128.size a
  inb_S25x8_S1x1_0_3 : ∀ a, (![0, 3] : Fin 2 → Nat) a + S1x1.size a ≤ S25x8.size a
  inb_S25x8_S1x1_1_3 : ∀ a, (![1, 3] : Fin 2 → Nat) a + S1x1.size a ≤ S25x8.size a
  inb_S25x8_S1x1_2_3 : ∀ a, (![2, 3] : Fin 2 → Nat) a + S1x1.size a ≤ S25x8.size a
  inb_S25x8_S1x1_3_3 : ∀ a, (![3, 3] : Fin 2 → Nat) a + S1x1.size a ≤ S25x8.size a
  inb_S25x8_S1x1_4_3 : ∀ a, (![4, 3] : Fin 2 → Nat) a + S1x1.size a ≤ S25x8.size a
  inb_S25x8_S1x1_5_3 : ∀ a, (![5, 3] : Fin 2 → Nat) a + S1x1.size a ≤ S25x8.size a
  inb_S25x8_S1x1_6_3 : ∀ a, (![6, 3] : Fin 2 → Nat) a + S1x1.size a ≤ S25x8.size a
  inb_S25x8_S1x1_7_3 : ∀ a, (![7, 3] : Fin 2 → Nat) a + S1x1.size a ≤ S25x8.size a
  inb_S25x8_S1x1_8_3 : ∀ a, (![8, 3] : Fin 2 → Nat) a + S1x1.size a ≤ S25x8.size a
  inb_S25x8_S1x1_9_3 : ∀ a, (![9, 3] : Fin 2 → Nat) a + S1x1.size a ≤ S25x8.size a
  inb_S25x8_S1x1_10_3 : ∀ a, (![10, 3] : Fin 2 → Nat) a + S1x1.size a ≤ S25x8.size a
  inb_S25x8_S1x1_11_3 : ∀ a, (![11, 3] : Fin 2 → Nat) a + S1x1.size a ≤ S25x8.size a
  inb_S25x8_S1x1_12_3 : ∀ a, (![12, 3] : Fin 2 → Nat) a + S1x1.size a ≤ S25x8.size a
  inb_S25x8_S1x1_13_3 : ∀ a, (![13, 3] : Fin 2 → Nat) a + S1x1.size a ≤ S25x8.size a
  inb_S25x8_S1x1_14_3 : ∀ a, (![14, 3] : Fin 2 → Nat) a + S1x1.size a ≤ S25x8.size a
  inb_S25x8_S1x1_15_3 : ∀ a, (![15, 3] : Fin 2 → Nat) a + S1x1.size a ≤ S25x8.size a
  inb_S25x8_S1x1_16_3 : ∀ a, (![16, 3] : Fin 2 → Nat) a + S1x1.size a ≤ S25x8.size a
  inb_S25x8_S1x1_17_3 : ∀ a, (![17, 3] : Fin 2 → Nat) a + S1x1.size a ≤ S25x8.size a
  inb_S25x8_S1x1_18_3 : ∀ a, (![18, 3] : Fin 2 → Nat) a + S1x1.size a ≤ S25x8.size a
  inb_S25x8_S1x1_19_3 : ∀ a, (![19, 3] : Fin 2 → Nat) a + S1x1.size a ≤ S25x8.size a
  inb_S25x8_S1x1_20_3 : ∀ a, (![20, 3] : Fin 2 → Nat) a + S1x1.size a ≤ S25x8.size a
  inb_S25x8_S1x1_21_3 : ∀ a, (![21, 3] : Fin 2 → Nat) a + S1x1.size a ≤ S25x8.size a
  inb_S25x8_S1x1_22_3 : ∀ a, (![22, 3] : Fin 2 → Nat) a + S1x1.size a ≤ S25x8.size a
  inb_S25x8_S1x1_23_3 : ∀ a, (![23, 3] : Fin 2 → Nat) a + S1x1.size a ≤ S25x8.size a
  inb_S25x8_S1x1_24_3 : ∀ a, (![24, 3] : Fin 2 → Nat) a + S1x1.size a ≤ S25x8.size a
  inb_S512x24x128_S512x1x128_0_19_0 : ∀ a, (![0, 19, 0] : Fin 3 → Nat) a + S512x1x128.size a ≤ S512x24x128.size a
  inb_S25x8_S1x1_0_4 : ∀ a, (![0, 4] : Fin 2 → Nat) a + S1x1.size a ≤ S25x8.size a
  inb_S25x8_S1x1_1_4 : ∀ a, (![1, 4] : Fin 2 → Nat) a + S1x1.size a ≤ S25x8.size a
  inb_S25x8_S1x1_2_4 : ∀ a, (![2, 4] : Fin 2 → Nat) a + S1x1.size a ≤ S25x8.size a
  inb_S25x8_S1x1_3_4 : ∀ a, (![3, 4] : Fin 2 → Nat) a + S1x1.size a ≤ S25x8.size a
  inb_S25x8_S1x1_4_4 : ∀ a, (![4, 4] : Fin 2 → Nat) a + S1x1.size a ≤ S25x8.size a
  inb_S25x8_S1x1_5_4 : ∀ a, (![5, 4] : Fin 2 → Nat) a + S1x1.size a ≤ S25x8.size a
  inb_S25x8_S1x1_6_4 : ∀ a, (![6, 4] : Fin 2 → Nat) a + S1x1.size a ≤ S25x8.size a
  inb_S25x8_S1x1_7_4 : ∀ a, (![7, 4] : Fin 2 → Nat) a + S1x1.size a ≤ S25x8.size a
  inb_S25x8_S1x1_8_4 : ∀ a, (![8, 4] : Fin 2 → Nat) a + S1x1.size a ≤ S25x8.size a
  inb_S25x8_S1x1_9_4 : ∀ a, (![9, 4] : Fin 2 → Nat) a + S1x1.size a ≤ S25x8.size a
  inb_S25x8_S1x1_10_4 : ∀ a, (![10, 4] : Fin 2 → Nat) a + S1x1.size a ≤ S25x8.size a
  inb_S25x8_S1x1_11_4 : ∀ a, (![11, 4] : Fin 2 → Nat) a + S1x1.size a ≤ S25x8.size a
  inb_S25x8_S1x1_12_4 : ∀ a, (![12, 4] : Fin 2 → Nat) a + S1x1.size a ≤ S25x8.size a
  inb_S25x8_S1x1_13_4 : ∀ a, (![13, 4] : Fin 2 → Nat) a + S1x1.size a ≤ S25x8.size a
  inb_S25x8_S1x1_14_4 : ∀ a, (![14, 4] : Fin 2 → Nat) a + S1x1.size a ≤ S25x8.size a
  inb_S25x8_S1x1_15_4 : ∀ a, (![15, 4] : Fin 2 → Nat) a + S1x1.size a ≤ S25x8.size a
  inb_S25x8_S1x1_16_4 : ∀ a, (![16, 4] : Fin 2 → Nat) a + S1x1.size a ≤ S25x8.size a
  inb_S25x8_S1x1_17_4 : ∀ a, (![17, 4] : Fin 2 → Nat) a + S1x1.size a ≤ S25x8.size a
  inb_S25x8_S1x1_18_4 : ∀ a, (![18, 4] : Fin 2 → Nat) a + S1x1.size a ≤ S25x8.size a
  inb_S25x8_S1x1_19_4 : ∀ a, (![19, 4] : Fin 2 → Nat) a + S1x1.size a ≤ S25x8.size a
  inb_S25x8_S1x1_20_4 : ∀ a, (![20, 4] : Fin 2 → Nat) a + S1x1.size a ≤ S25x8.size a
  inb_S25x8_S1x1_21_4 : ∀ a, (![21, 4] : Fin 2 → Nat) a + S1x1.size a ≤ S25x8.size a
  inb_S25x8_S1x1_22_4 : ∀ a, (![22, 4] : Fin 2 → Nat) a + S1x1.size a ≤ S25x8.size a
  inb_S25x8_S1x1_23_4 : ∀ a, (![23, 4] : Fin 2 → Nat) a + S1x1.size a ≤ S25x8.size a
  inb_S25x8_S1x1_24_4 : ∀ a, (![24, 4] : Fin 2 → Nat) a + S1x1.size a ≤ S25x8.size a
  inb_S512x24x128_S512x1x128_0_20_0 : ∀ a, (![0, 20, 0] : Fin 3 → Nat) a + S512x1x128.size a ≤ S512x24x128.size a
  inb_S25x8_S1x1_0_5 : ∀ a, (![0, 5] : Fin 2 → Nat) a + S1x1.size a ≤ S25x8.size a
  inb_S25x8_S1x1_1_5 : ∀ a, (![1, 5] : Fin 2 → Nat) a + S1x1.size a ≤ S25x8.size a
  inb_S25x8_S1x1_2_5 : ∀ a, (![2, 5] : Fin 2 → Nat) a + S1x1.size a ≤ S25x8.size a
  inb_S25x8_S1x1_3_5 : ∀ a, (![3, 5] : Fin 2 → Nat) a + S1x1.size a ≤ S25x8.size a
  inb_S25x8_S1x1_4_5 : ∀ a, (![4, 5] : Fin 2 → Nat) a + S1x1.size a ≤ S25x8.size a
  inb_S25x8_S1x1_5_5 : ∀ a, (![5, 5] : Fin 2 → Nat) a + S1x1.size a ≤ S25x8.size a
  inb_S25x8_S1x1_6_5 : ∀ a, (![6, 5] : Fin 2 → Nat) a + S1x1.size a ≤ S25x8.size a
  inb_S25x8_S1x1_7_5 : ∀ a, (![7, 5] : Fin 2 → Nat) a + S1x1.size a ≤ S25x8.size a
  inb_S25x8_S1x1_8_5 : ∀ a, (![8, 5] : Fin 2 → Nat) a + S1x1.size a ≤ S25x8.size a
  inb_S25x8_S1x1_9_5 : ∀ a, (![9, 5] : Fin 2 → Nat) a + S1x1.size a ≤ S25x8.size a
  inb_S25x8_S1x1_10_5 : ∀ a, (![10, 5] : Fin 2 → Nat) a + S1x1.size a ≤ S25x8.size a
  inb_S25x8_S1x1_11_5 : ∀ a, (![11, 5] : Fin 2 → Nat) a + S1x1.size a ≤ S25x8.size a
  inb_S25x8_S1x1_12_5 : ∀ a, (![12, 5] : Fin 2 → Nat) a + S1x1.size a ≤ S25x8.size a
  inb_S25x8_S1x1_13_5 : ∀ a, (![13, 5] : Fin 2 → Nat) a + S1x1.size a ≤ S25x8.size a
  inb_S25x8_S1x1_14_5 : ∀ a, (![14, 5] : Fin 2 → Nat) a + S1x1.size a ≤ S25x8.size a
  inb_S25x8_S1x1_15_5 : ∀ a, (![15, 5] : Fin 2 → Nat) a + S1x1.size a ≤ S25x8.size a
  inb_S25x8_S1x1_16_5 : ∀ a, (![16, 5] : Fin 2 → Nat) a + S1x1.size a ≤ S25x8.size a
  inb_S25x8_S1x1_17_5 : ∀ a, (![17, 5] : Fin 2 → Nat) a + S1x1.size a ≤ S25x8.size a
  inb_S25x8_S1x1_18_5 : ∀ a, (![18, 5] : Fin 2 → Nat) a + S1x1.size a ≤ S25x8.size a
  inb_S25x8_S1x1_19_5 : ∀ a, (![19, 5] : Fin 2 → Nat) a + S1x1.size a ≤ S25x8.size a
  inb_S25x8_S1x1_20_5 : ∀ a, (![20, 5] : Fin 2 → Nat) a + S1x1.size a ≤ S25x8.size a
  inb_S25x8_S1x1_21_5 : ∀ a, (![21, 5] : Fin 2 → Nat) a + S1x1.size a ≤ S25x8.size a
  inb_S25x8_S1x1_22_5 : ∀ a, (![22, 5] : Fin 2 → Nat) a + S1x1.size a ≤ S25x8.size a
  inb_S25x8_S1x1_23_5 : ∀ a, (![23, 5] : Fin 2 → Nat) a + S1x1.size a ≤ S25x8.size a
  inb_S25x8_S1x1_24_5 : ∀ a, (![24, 5] : Fin 2 → Nat) a + S1x1.size a ≤ S25x8.size a
  inb_S512x24x128_S512x1x128_0_21_0 : ∀ a, (![0, 21, 0] : Fin 3 → Nat) a + S512x1x128.size a ≤ S512x24x128.size a
  inb_S25x8_S1x1_0_6 : ∀ a, (![0, 6] : Fin 2 → Nat) a + S1x1.size a ≤ S25x8.size a
  inb_S25x8_S1x1_1_6 : ∀ a, (![1, 6] : Fin 2 → Nat) a + S1x1.size a ≤ S25x8.size a
  inb_S25x8_S1x1_2_6 : ∀ a, (![2, 6] : Fin 2 → Nat) a + S1x1.size a ≤ S25x8.size a
  inb_S25x8_S1x1_3_6 : ∀ a, (![3, 6] : Fin 2 → Nat) a + S1x1.size a ≤ S25x8.size a
  inb_S25x8_S1x1_4_6 : ∀ a, (![4, 6] : Fin 2 → Nat) a + S1x1.size a ≤ S25x8.size a
  inb_S25x8_S1x1_5_6 : ∀ a, (![5, 6] : Fin 2 → Nat) a + S1x1.size a ≤ S25x8.size a
  inb_S25x8_S1x1_6_6 : ∀ a, (![6, 6] : Fin 2 → Nat) a + S1x1.size a ≤ S25x8.size a
  inb_S25x8_S1x1_7_6 : ∀ a, (![7, 6] : Fin 2 → Nat) a + S1x1.size a ≤ S25x8.size a
  inb_S25x8_S1x1_8_6 : ∀ a, (![8, 6] : Fin 2 → Nat) a + S1x1.size a ≤ S25x8.size a
  inb_S25x8_S1x1_9_6 : ∀ a, (![9, 6] : Fin 2 → Nat) a + S1x1.size a ≤ S25x8.size a
  inb_S25x8_S1x1_10_6 : ∀ a, (![10, 6] : Fin 2 → Nat) a + S1x1.size a ≤ S25x8.size a
  inb_S25x8_S1x1_11_6 : ∀ a, (![11, 6] : Fin 2 → Nat) a + S1x1.size a ≤ S25x8.size a
  inb_S25x8_S1x1_12_6 : ∀ a, (![12, 6] : Fin 2 → Nat) a + S1x1.size a ≤ S25x8.size a
  inb_S25x8_S1x1_13_6 : ∀ a, (![13, 6] : Fin 2 → Nat) a + S1x1.size a ≤ S25x8.size a
  inb_S25x8_S1x1_14_6 : ∀ a, (![14, 6] : Fin 2 → Nat) a + S1x1.size a ≤ S25x8.size a
  inb_S25x8_S1x1_15_6 : ∀ a, (![15, 6] : Fin 2 → Nat) a + S1x1.size a ≤ S25x8.size a
  inb_S25x8_S1x1_16_6 : ∀ a, (![16, 6] : Fin 2 → Nat) a + S1x1.size a ≤ S25x8.size a
  inb_S25x8_S1x1_17_6 : ∀ a, (![17, 6] : Fin 2 → Nat) a + S1x1.size a ≤ S25x8.size a
  inb_S25x8_S1x1_18_6 : ∀ a, (![18, 6] : Fin 2 → Nat) a + S1x1.size a ≤ S25x8.size a
  inb_S25x8_S1x1_19_6 : ∀ a, (![19, 6] : Fin 2 → Nat) a + S1x1.size a ≤ S25x8.size a
  inb_S25x8_S1x1_20_6 : ∀ a, (![20, 6] : Fin 2 → Nat) a + S1x1.size a ≤ S25x8.size a
  inb_S25x8_S1x1_21_6 : ∀ a, (![21, 6] : Fin 2 → Nat) a + S1x1.size a ≤ S25x8.size a
  inb_S25x8_S1x1_22_6 : ∀ a, (![22, 6] : Fin 2 → Nat) a + S1x1.size a ≤ S25x8.size a
  inb_S25x8_S1x1_23_6 : ∀ a, (![23, 6] : Fin 2 → Nat) a + S1x1.size a ≤ S25x8.size a
  inb_S25x8_S1x1_24_6 : ∀ a, (![24, 6] : Fin 2 → Nat) a + S1x1.size a ≤ S25x8.size a
  inb_S512x24x128_S512x1x128_0_22_0 : ∀ a, (![0, 22, 0] : Fin 3 → Nat) a + S512x1x128.size a ≤ S512x24x128.size a
  inb_S25x8_S1x1_0_7 : ∀ a, (![0, 7] : Fin 2 → Nat) a + S1x1.size a ≤ S25x8.size a
  inb_S25x8_S1x1_1_7 : ∀ a, (![1, 7] : Fin 2 → Nat) a + S1x1.size a ≤ S25x8.size a
  inb_S25x8_S1x1_2_7 : ∀ a, (![2, 7] : Fin 2 → Nat) a + S1x1.size a ≤ S25x8.size a
  inb_S25x8_S1x1_3_7 : ∀ a, (![3, 7] : Fin 2 → Nat) a + S1x1.size a ≤ S25x8.size a
  inb_S25x8_S1x1_4_7 : ∀ a, (![4, 7] : Fin 2 → Nat) a + S1x1.size a ≤ S25x8.size a
  inb_S25x8_S1x1_5_7 : ∀ a, (![5, 7] : Fin 2 → Nat) a + S1x1.size a ≤ S25x8.size a
  inb_S25x8_S1x1_6_7 : ∀ a, (![6, 7] : Fin 2 → Nat) a + S1x1.size a ≤ S25x8.size a
  inb_S25x8_S1x1_7_7 : ∀ a, (![7, 7] : Fin 2 → Nat) a + S1x1.size a ≤ S25x8.size a
  inb_S25x8_S1x1_8_7 : ∀ a, (![8, 7] : Fin 2 → Nat) a + S1x1.size a ≤ S25x8.size a
  inb_S25x8_S1x1_9_7 : ∀ a, (![9, 7] : Fin 2 → Nat) a + S1x1.size a ≤ S25x8.size a
  inb_S25x8_S1x1_10_7 : ∀ a, (![10, 7] : Fin 2 → Nat) a + S1x1.size a ≤ S25x8.size a
  inb_S25x8_S1x1_11_7 : ∀ a, (![11, 7] : Fin 2 → Nat) a + S1x1.size a ≤ S25x8.size a
  inb_S25x8_S1x1_12_7 : ∀ a, (![12, 7] : Fin 2 → Nat) a + S1x1.size a ≤ S25x8.size a
  inb_S25x8_S1x1_13_7 : ∀ a, (![13, 7] : Fin 2 → Nat) a + S1x1.size a ≤ S25x8.size a
  inb_S25x8_S1x1_14_7 : ∀ a, (![14, 7] : Fin 2 → Nat) a + S1x1.size a ≤ S25x8.size a
  inb_S25x8_S1x1_15_7 : ∀ a, (![15, 7] : Fin 2 → Nat) a + S1x1.size a ≤ S25x8.size a
  inb_S25x8_S1x1_16_7 : ∀ a, (![16, 7] : Fin 2 → Nat) a + S1x1.size a ≤ S25x8.size a
  inb_S25x8_S1x1_17_7 : ∀ a, (![17, 7] : Fin 2 → Nat) a + S1x1.size a ≤ S25x8.size a
  inb_S25x8_S1x1_18_7 : ∀ a, (![18, 7] : Fin 2 → Nat) a + S1x1.size a ≤ S25x8.size a
  inb_S25x8_S1x1_19_7 : ∀ a, (![19, 7] : Fin 2 → Nat) a + S1x1.size a ≤ S25x8.size a
  inb_S25x8_S1x1_20_7 : ∀ a, (![20, 7] : Fin 2 → Nat) a + S1x1.size a ≤ S25x8.size a
  inb_S25x8_S1x1_21_7 : ∀ a, (![21, 7] : Fin 2 → Nat) a + S1x1.size a ≤ S25x8.size a
  inb_S25x8_S1x1_22_7 : ∀ a, (![22, 7] : Fin 2 → Nat) a + S1x1.size a ≤ S25x8.size a
  inb_S25x8_S1x1_23_7 : ∀ a, (![23, 7] : Fin 2 → Nat) a + S1x1.size a ≤ S25x8.size a
  inb_S25x8_S1x1_24_7 : ∀ a, (![24, 7] : Fin 2 → Nat) a + S1x1.size a ≤ S25x8.size a
  inb_S512x24x128_S512x1x128_0_23_0 : ∀ a, (![0, 23, 0] : Fin 3 → Nat) a + S512x1x128.size a ≤ S512x24x128.size a
  transposes_S16384x24x128_S16384x128x24_0_2_1 : S16384x24x128.Transposes [0, 2, 1] S16384x128x24
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x7x128.size a ≤ S16384x7x128.size a
  hwx0_0 : ∀ i : grid0.Coords, EltTy.bits .f32 = 32 ∨ (Rect.block (s := S16384x7x128) S512x7x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S16384x128.size a
  hwx0_1 : ∀ i : grid0.Coords, EltTy.bits .f32 = 32 ∨ (Rect.block (s := S16384x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x5.size a ≤ S16x5.size a
  hwx0_2 : ∀ i : grid0.Coords, EltTy.bits .f32 = 32 ∨ (Rect.block (s := S16x5) S16x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S25x8.size a ≤ S25x8.size a
  hwx0_4 : ∀ i : grid0.Coords, EltTy.bits .f32 = 32 ∨ (Rect.block (s := S25x8) S25x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x24x128.size a ≤ S16384x24x128.size a
  hwx0_5 : ∀ i : grid0.Coords, EltTy.bits .f32 = 32 ∨ (Rect.block (s := S16384x24x128) S512x24x128.size (cc0_transform_5 i) (hinb0_5 i)).WholeWords (EltTy.packing .f32)

variable [Facts₀]

abbrev win0_0 : Pipeline.Window sig grid0 :=
  Pipeline.Window.ofSpec (Memref.whole main_v0) S512x7x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S25x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x24x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x128x7 : Shape := ⟨3, ![16384, 128, 7]⟩
abbrev S16384x128 : Shape := ⟨2, ![16384, 128]⟩
abbrev S16x5 : Shape := ⟨2, ![16, 5]⟩
abbrev S16 : Shape := ⟨1, ![16]⟩
abbrev S25x8 : Shape := ⟨2, ![25, 8]⟩
abbrev S16384x128x1 : Shape := ⟨3, ![16384, 128, 1]⟩
abbrev S16384x128x5 : Shape := ⟨3, ![16384, 128, 5]⟩
abbrev S16384x128x16 : Shape := ⟨3, ![16384, 128, 16]⟩
abbrev S1x1x16 : Shape := ⟨3, ![1, 1, 16]⟩
abbrev S_ : Shape := ⟨0, ![]⟩
abbrev S16384x128x8 : Shape := ⟨3, ![16384, 128, 8]⟩
abbrev S16384x128x24 : Shape := ⟨3, ![16384, 128, 24]⟩

abbrev nBuf : Space → Nat
  | .hbm => 48
  | .vmem => 0
  | .smem => 0
  | _ => 0

abbrev bufTy : (tb : Table) → Fin (tcTables nBuf tb) → BufTy
  | .hbm, ⟨0, _⟩ => ⟨S16384x128x7, .f32⟩
  | .hbm, ⟨1, _⟩ => ⟨S16384x128, .f32⟩
  | .hbm, ⟨2, _⟩ => ⟨S16x5, .f32⟩
  | .hbm, ⟨3, _⟩ => ⟨S16, .f32⟩
  | .hbm, ⟨4, _⟩ => ⟨S25x8, .f32⟩
  | .hbm, ⟨5, _⟩ => ⟨S16384x128x1, .f32⟩
  | .hbm, ⟨6, _⟩ => ⟨S16384x128x7, .f32⟩
  | .hbm, ⟨7, _⟩ => ⟨S16384x128x7, .f32⟩
  | .hbm, ⟨8, _⟩ => ⟨S16384x128x5, .f32⟩
  | .hbm, ⟨9, _⟩ => ⟨S16384x128x1, .f32⟩
  | .hbm, ⟨10, _⟩ => ⟨S16384x128, .f32⟩
  | .hbm, ⟨11, _⟩ => ⟨S16384x128, .i32⟩
  | .hbm, ⟨12, _⟩ => ⟨S16384x128x16, .f32⟩
  | .hbm, ⟨13, _⟩ => ⟨S1x1x16, .f32⟩
  | .hbm, ⟨14, _⟩ => ⟨S16384x128x16, .f32⟩
  | .hbm, ⟨15, _⟩ => ⟨S16384x128x16, .f32⟩
  | .hbm, ⟨16, _⟩ => ⟨S_, .f32⟩
  | .hbm, ⟨17, _⟩ => ⟨S16384x128x16, .f32⟩
  | .hbm, ⟨18, _⟩ => ⟨S16384x128x16, .f32⟩
  | .hbm, ⟨19, _⟩ => ⟨S_, .i32⟩
  | .hbm, ⟨20, _⟩ => ⟨S16384x128, .i32⟩
  | .hbm, ⟨21, _⟩ => ⟨S16384x128, .i1⟩
  | .hbm, ⟨22, _⟩ => ⟨S_, .i32⟩
  | .hbm, ⟨23, _⟩ => ⟨S16384x128, .i32⟩
  | .hbm, ⟨24, _⟩ => ⟨S16384x128, .i1⟩
  | .hbm, ⟨25, _⟩ => ⟨S16384x128, .i1⟩
  | .hbm, ⟨26, _⟩ => ⟨S_, .i32⟩
  | .hbm, ⟨27, _⟩ => ⟨S16384x128, .i32⟩
  | .hbm, ⟨28, _⟩ => ⟨S16384x128, .i32⟩
  | .hbm, ⟨29, _⟩ => ⟨S_, .i32⟩
  | .hbm, ⟨30, _⟩ => ⟨S16384x128, .i32⟩
  | .hbm, ⟨31, _⟩ => ⟨S16384x128, .i32⟩
  | .hbm, ⟨32, _⟩ => ⟨S_, .i32⟩
  | .hbm, ⟨33, _⟩ => ⟨S_, .i32⟩
  | .hbm, ⟨34, _⟩ => ⟨S16384x128, .i32⟩
  | .hbm, ⟨35, _⟩ => ⟨S16384x128, .i32⟩
  | .hbm, ⟨36, _⟩ => ⟨S_, .i32⟩
  | .hbm, ⟨37, _⟩ => ⟨S16384x128, .i32⟩
  | .hbm, ⟨38, _⟩ => ⟨S16384x128, .i1⟩
  | .hbm, ⟨39, _⟩ => ⟨S_, .i32⟩
  | .hbm, ⟨40, _⟩ => ⟨S16384x128, .i32⟩
  | .hbm, ⟨41, _⟩ => ⟨S16384x128, .i32⟩
  | .hbm, ⟨42, _⟩ => ⟨S16384x128, .i32⟩
  | .hbm, ⟨43, _⟩ => ⟨S16384x128x1, .i32⟩
  | .hbm, ⟨44, _⟩ => ⟨S16384x128x8, .f32⟩
  | .hbm, ⟨45, _⟩ => ⟨S16384x128x24, .f32⟩
  | .hbm, ⟨46, _⟩ => ⟨S16384x128x24, .f32⟩
  | .hbm, ⟨47, _⟩ => ⟨S16384x128x24, .f32⟩
  | _, _ => ⟨S16384x128x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_call1_v0 : Ref sig .tc := ⟨.hbm, 33, rfl⟩
abbrev main_call1_v1 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  bcast_S16384x128_S16384x128x1_0_1 : S16384x128.BroadcastsInDim S16384x128x1 (![0, 1] : Fin 2 → Fin S16384x128x1.rank)
  bcast_S16384x128x1_S16384x128x7_0_1_2 : S16384x128x1.BroadcastsInDim S16384x128x7 (![0, 1, 2] : Fin 3 → Fin S16384x128x7.rank)
  slices_S16384x128x7_S16384x128x5_0_0_0 : S16384x128x7.Slices ![0, 0, 0] S16384x128x5
  slices_S16384x128x7_S16384x128x1_0_0_5 : S16384x128x7.Slices ![0, 0, 5] S16384x128x1
  shapeCasts_S16384x128x1_S16384x128 : S16384x128x1.ShapeCasts S16384x128
  bcast_S16_S1x1x16_2 : S16.BroadcastsInDim S1x1x16 (![2] : Fin 1 → Fin S1x1x16.rank)
  bcast_S1x1x16_S16384x128x16_0_1_2 : S1x1x16.BroadcastsInDim S16384x128x16 (![0, 1, 2] : Fin 3 → Fin S16384x128x16.rank)
  bcast_S_S16384x128x16 : S_.BroadcastsInDim S16384x128x16 (![] : Fin 0 → Fin S16384x128x16.rank)
  bcast_S_S16384x128 : S_.BroadcastsInDim S16384x128 (![] : Fin 0 → Fin S16384x128.rank)
  concatenates_S16384x128x16_S16384x128x8_S16384x128x24_d2 : Shape.Concatenates [S16384x128x16, S16384x128x8] S16384x128x24 2
  bcast_S16384x128x1_S16384x128x24_0_1_2 : S16384x128x1.BroadcastsInDim S16384x128x24 (![0, 1, 2] : Fin 3 → Fin S16384x128x24.rank)
  dot_S16384x128x5_S16x5_S16384x128x16_2_1_01_0_n_n_wf : DotDims.WF S16384x128x5 S16x5 S16384x128x16 [2] [1] [0, 1] [0] [] []
  gather_S25x8_S16384x128x1_S16384x128x8_2_0_n_n_0_2_18_wf : GatherDims.WF S25x8 S16384x128x1 S16384x128x8 [2] [0] [] [0] [] 2 ![1, 8]

variable [Facts₀]

def dot_S16384x128x5_S16x5_S16384x128x16_2_1_01_0_n_n : DotDims S16384x128x5 S16x5 S16384x128x16 where
  lhsContracting := [2]
  rhsContracting := [1]
  lhsNonContracting := [0, 1]
  rhsNonContracting := [0]
  lhsBatch := []
  rhsBatch := []
  wf := dot_S16384x128x5_S16x5_S16384x128x16_2_1_01_0_n_n_wf
def gather_S25x8_S16384x128x1_S16384x128x8_2_0_n_n_0_2_18 : GatherDims S25x8 S16384x128x1 S16384x128x8 where
  offsetDims := [2]
  collapsedSliceDims := [0]
  operandBatchingDims := []
  startIndicesBatchingDims := []
  startIndexMap := [0]
  indexVectorDim := 2
  sliceSizes := ![1, 8]
  wf := gather_S25x8_S16384x128x1_S16384x128x8_2_0_n_n_0_2_18_wf

class Facts : Prop extends Facts₀ where

variable [Facts]
-- ==== Proof.Cell.lean ====
/-
  One cell of the elements feature map, on the extended reals.

  For one element (b, n) both programs see six masked features f_j = info[b, n, j] · m, m the mask entry, and produce
  24 numbers. Channels 0 … 15 are a dense layer followed by a rectifier and the mask:
  max(bias_o + Σ_j w_{o,j} · f_j, 0) · m. Channels 16 … 23 read row `code` of a 25-row table, times the mask, where
  `code` is the masked atomic number f_5 truncated to a 32-bit integer z and mapped to z − 56 when 57 ≤ z ≤ 80 and to 0
  otherwise, so it always names one of the rows 0 … 24. The kernel spells the row read as the sum over all 25 rows of
  (1 if code = k else 0) · table[k]; on the extended reals 0 · x = 0 for every x, infinite or not, and 0 + x = x, so
  that sum is the one row whose number is the code, with no finiteness assumption. The dense sum is written here in
  the kernel's order of additions; reordering it uses only that + and · are commutative and associative.
-/
import Idealize.ShloMosaic.PureOps.Ideal
import Idealize.ShloMosaic.PureOps.Ideal.Laws
import Idealize.ShloMosaic.Lib.ValueIdx

noncomputable section

namespace Cert.Elements

open Idealize.ShloMosaic

/-- The zero of the 32-bit float format, as an extended real. -/
def zero : EReal := Scalar.ofBits (F := Ideal) .f32 0x00000000#32

/-- The masked atomic number `v` truncated to a 32-bit integer. -/
def atomic (v : EReal) : BitVec 32 := FloatOps.fptosi (F := Ideal) (φ := .f32) 32 v

/-- The table row of an atomic number: z − 57 + 1 for 57 ≤ z ≤ 80, else 0. -/
def code (z : BitVec 32) : BitVec 32 :=
  Scalar.select (IntOp.andi (IntOp.cmpi .sge z 57#32) (IntOp.cmpi .sle z 80#32)) (IntOp.addi (IntOp.subi z 57#32) 1#32) 0#32

/-- A dense channel in the kernel's order: the bias, then the five products added one after the other, the rectifier,
    the mask. -/
def dense (bias : EReal) (w f : Fin 5 → EReal) (m : EReal) : EReal :=
  max (((((bias + w 0 * f 0) + w 1 * f 1) + w 2 * f 2) + w 3 * f 3) + w 4 * f 4) zero * m

/-- 1 if the word `z` is the number `k`, else 0, as the kernel computes it: the equality bit widened to 32 bits and
    converted to a float. -/
def bit (z : BitVec 32) (k : ℕ) : EReal :=
  FloatOps.sitofp (F := Ideal) .f32 ((IntOp.cmpi .eq z (BitVec.ofNat 32 k)).setWidth 32)

/-- The sum over the first `n` table rows of bit · row, added in order from zero. -/
def rowSum (z : BitVec 32) (e : Fin 25 → EReal) : ℕ → EReal
  | 0 => zero
  | n + 1 => rowSum z e n + bit z n * e ⟨n % 25, Nat.mod_lt _ (by decide)⟩

/-- A table channel in the kernel's spelling: all 25 rows weighed by their bits, times the mask. -/
def lookup (z : BitVec 32) (e : Fin 25 → EReal) (m : EReal) : EReal := rowSum z e 25 * m

end Cert.Elements

end
-- ==== Proof.Planes.lean ====
/-
  The feature map of a whole array of elements, in the two layouts the programs use.

  For R rows of 128 elements, with the seven input features of element (p, q) stored feature-major as x0[p, j, q] and
  the mask as x1[p, q], `planes` is the [R, 24, 128] array whose entry (p, c, q) is channel c of element (p, q): a
  dense channel for c < 16, a table channel for c ≥ 16 (Cell.lean). The kernel computes a 512-row block of it per grid
  point; the whole result is the same function at R = 16384. `features` is the same array element-major, [R, 128, 24],
  over element-major inputs [R, 128, 7]: what both programs return.
-/
import proofs.«166924_j70798240907696_2_alg».proof.Proof.Cell

noncomputable section

namespace Cert.Elements

open Idealize.ShloMosaic Idealize.ShloMosaic.ValueIdx

variable {R : ℕ}
variable (x0 : (⟨3, ![R, 7, 128]⟩ : Shape).Idx → EReal) (x1 : (⟨2, ![R, 128]⟩ : Shape).Idx → EReal)
  (x2 : (⟨2, ![16, 5]⟩ : Shape).Idx → EReal) (x3 : (⟨1, ![16]⟩ : Shape).Idx → EReal)
  (x4 : (⟨2, ![25, 8]⟩ : Shape).Idx → EReal)

/-- Masked feature j of element (p, q). -/
def feat (j : Fin 6) (p : Fin R) (q : Fin 128) : EReal :=
  x0 (ix3 p ⟨j.val, by omega⟩ q) * x1 (ix2 p q)

/-- Dense channel o of element (p, q). -/
def denseAt (o : Fin 16) (p : Fin R) (q : Fin 128) : EReal :=
  dense (x3 (ix1 o)) (fun k => x2 (ix2 o k)) (fun j => feat x0 x1 ⟨j.val, by omega⟩ p q) (x1 (ix2 p q))

/-- Table channel d of element (p, q): column d of the row its atomic number names. -/
def lookupAt (d : Fin 8) (p : Fin R) (q : Fin 128) : EReal :=
  lookup (code (atomic (feat x0 x1 5 p q))) (fun k => x4 (ix2 k d)) (x1 (ix2 p q))

/-- All 24 channels, feature-major. -/
def planes : (⟨3, ![R, 24, 128]⟩ : Shape).Idx → EReal := fun y =>
  if h : (y 1).val < 16 then denseAt x0 x1 x2 x3 ⟨(y 1).val, h⟩ (y 0) (y 2)
  else lookupAt x0 x1 x4 ⟨(y 1).val - 16, by have h24 : (y 1).val < 24 := (y 1).isLt; omega⟩ (y 0) (y 2)

theorem planes_dense (c : ℕ) (hc : c < 24) (h : c < 16) (p : Fin R) (q : Fin 128) :
    planes x0 x1 x2 x3 x4 (ix3 p ⟨c, hc⟩ q) = denseAt x0 x1 x2 x3 ⟨c, h⟩ p q := by
  show (if h' : c < 16 then _ else _) = _
  rw [dif_pos h]
  rfl

theorem planes_lookup (c : ℕ) (hc : c < 24) (h : 16 ≤ c) (p : Fin R) (q : Fin 128) :
    planes x0 x1 x2 x3 x4 (ix3 p ⟨c, hc⟩ q) = lookupAt x0 x1 x4 ⟨c - 16, by omega⟩ p q := by
  show (if h' : c < 16 then _ else _) = _
  rw [dif_neg (by omega)]
  rfl

/-- The map over element-major inputs, element-major: entry (b, n, c) is channel c of element (b, n). -/
def features (a0 : (⟨3, ![R, 128, 7]⟩ : Shape).Idx → EReal) (a1 : (⟨2, ![R, 128]⟩ : Shape).Idx → EReal) :
    (⟨3, ![R, 128, 24]⟩ : Shape).Idx → EReal := fun i =>
  planes (R := R) (fun (y : (⟨3, ![R, 7, 128]⟩ : Shape).Idx) => a0 (ix3 (y 0) (y 2) (y 1))) a1 x2 x3 x4 (ix3 (i 0) (i 2) (i 1))

end Cert.Elements

end
-- ==== Proof.LibBlockReads.lean ====
/-
  Reading a block of a pipelined array at coordinates.

  The kernel body loads one feature plane [512, 1, 128] of its [512, 7, 128] input block, single entries of the small
  parameter arrays, and stores one channel plane [512, 1, 128] of its [512, 24, 128] output block. A unit-stride load
  at offsets (0, j, 0) read at (p, 0, q) is the block at (p, j, q); a one-entry load at offsets (o, f) is the entry
  (o, f); a load of the whole block is the block. Stated for any extents and any element type; the offsets are natural
  numbers whose bounds follow from the load's own in-range condition, so the lemmas carry no side condition.
-/
import Idealize.ShloMosaic.Lib.Pipeline.Value
import Idealize.ShloMosaic.Lib.ValueIdx

noncomputable section

namespace Cert.Lib

open Idealize.ShloMosaic Idealize.ShloMosaic.ValueIdx

variable {Val : EltTy → Type} {e : EltTy}

/-- A plane offset inside a stack is a plane of the stack. -/
theorem plane_lt {A J n j : ℕ}
    (inb : ∀ a, (![0, j, 0] : Fin 3 → ℕ) a + (⟨3, ![A, 1, n]⟩ : Shape).size a ≤ (⟨3, ![A, J, n]⟩ : Shape).size a) : j < J := by
  have h := inb 1
  have h' : j + 1 ≤ J := h
  omega

/-- Plane `j` of an [A, J, n] stack, loaded as [A, 1, n] and read at (p, u, q): the stack at (p, j, q). -/
theorem ld_plane_apply {A J n : ℕ} (X : (⟨3, ![A, J, n]⟩ : Shape).Idx → Val e) (j : ℕ)
    (inb : ∀ a, (![0, j, 0] : Fin 3 → ℕ) a + (⟨3, ![A, 1, n]⟩ : Shape).size a ≤ (⟨3, ![A, J, n]⟩ : Shape).size a)
    (p : Fin A) (u : Fin 1) (q : Fin n) :
    View.ld X (Rect.unit (s := ⟨3, ![A, J, n]⟩) ![0, j, 0] (⟨3, ![A, 1, n]⟩ : Shape).size inb) (ix3 p u q)
      = X (ix3 p ⟨j, plane_lt inb⟩ q) := by
  have hu : u.val = 0 := by omega
  show X _ = X _
  refine congrArg X (funext fun a => Fin.ext ?_)
  match a with
  | ⟨0, _⟩ => show 0 + 1 * p.val = p.val; omega
  | ⟨1, _⟩ => show j + 1 * u.val = j; omega
  | ⟨2, _⟩ => show 0 + 1 * q.val = q.val; omega

/-- The embedding of plane `j`'s rectangle: (p, u, q) sits at (p, j, q). -/
theorem emb_plane {A J n : ℕ} (j : ℕ)
    (inb : ∀ a, (![0, j, 0] : Fin 3 → ℕ) a + (⟨3, ![A, 1, n]⟩ : Shape).size a ≤ (⟨3, ![A, J, n]⟩ : Shape).size a)
    (p : Fin A) (u : Fin 1) (q : Fin n) :
    (Rect.unit (s := ⟨3, ![A, J, n]⟩) ![0, j, 0] (⟨3, ![A, 1, n]⟩ : Shape).size inb).emb (ix3 p u q)
      = ix3 p ⟨j, plane_lt inb⟩ q := by
  have hu : u.val = 0 := by omega
  refine funext fun a => Fin.ext ?_
  match a with
  | ⟨0, _⟩ => show 0 + 1 * p.val = p.val; omega
  | ⟨1, _⟩ => show j + 1 * u.val = j; omega
  | ⟨2, _⟩ => show 0 + 1 * q.val = q.val; omega

/-- A load of a whole [A, B] matrix is the matrix. -/
theorem ld_whole2_apply {A B : ℕ} (X : (⟨2, ![A, B]⟩ : Shape).Idx → Val e)
    (inb : ∀ a, (![0, 0] : Fin 2 → ℕ) a + (⟨2, ![A, B]⟩ : Shape).size a ≤ (⟨2, ![A, B]⟩ : Shape).size a)
    (p : Fin A) (q : Fin B) :
    View.ld X (Rect.unit (s := ⟨2, ![A, B]⟩) ![0, 0] (⟨2, ![A, B]⟩ : Shape).size inb) (ix2 p q) = X (ix2 p q) := by
  show X _ = X _
  refine congrArg X (funext fun a => Fin.ext ?_)
  match a with
  | ⟨0, _⟩ => show 0 + 1 * p.val = p.val; omega
  | ⟨1, _⟩ => show 0 + 1 * q.val = q.val; omega

theorem entry2_lt0 {A B o f : ℕ}
    (inb : ∀ a, (![o, f] : Fin 2 → ℕ) a + (⟨2, ![1, 1]⟩ : Shape).size a ≤ (⟨2, ![A, B]⟩ : Shape).size a) : o < A := by
  have h : o + 1 ≤ A := inb 0
  omega

theorem entry2_lt1 {A B o f : ℕ}
    (inb : ∀ a, (![o, f] : Fin 2 → ℕ) a + (⟨2, ![1, 1]⟩ : Shape).size a ≤ (⟨2, ![A, B]⟩ : Shape).size a) : f < B := by
  have h : f + 1 ≤ B := inb 1
  omega

/-- One entry (o, f) of an [A, B] matrix loaded as [1, 1] and extracted. -/
theorem ld_entry2 {A B : ℕ} (X : (⟨2, ![A, B]⟩ : Shape).Idx → Val e) (o f : ℕ)
    (inb : ∀ a, (![o, f] : Fin 2 → ℕ) a + (⟨2, ![1, 1]⟩ : Shape).size a ≤ (⟨2, ![A, B]⟩ : Shape).size a)
    (hpos : ∀ a, (![0, 0] : Fin 2 → ℕ) a < (⟨2, ![1, 1]⟩ : Shape).size a) :
    extractAt ![0, 0] (View.ld X (Rect.unit (s := ⟨2, ![A, B]⟩) ![o, f] (⟨2, ![1, 1]⟩ : Shape).size inb)) hpos
      = X (ix2 ⟨o, entry2_lt0 inb⟩ ⟨f, entry2_lt1 inb⟩) := by
  show X _ = X _
  refine congrArg X (funext fun a => Fin.ext ?_)
  match a with
  | ⟨0, _⟩ => show o + 1 * 0 = o; omega
  | ⟨1, _⟩ => show f + 1 * 0 = f; omega

theorem entry1_lt {A o : ℕ}
    (inb : ∀ a, (![o] : Fin 1 → ℕ) a + (⟨1, ![1]⟩ : Shape).size a ≤ (⟨1, ![A]⟩ : Shape).size a) : o < A := by
  have h : o + 1 ≤ A := inb 0
  omega

/-- One entry o of an [A] vector loaded as [1] and extracted. -/
theorem ld_entry1 {A : ℕ} (X : (⟨1, ![A]⟩ : Shape).Idx → Val e) (o : ℕ)
    (inb : ∀ a, (![o] : Fin 1 → ℕ) a + (⟨1, ![1]⟩ : Shape).size a ≤ (⟨1, ![A]⟩ : Shape).size a)
    (hpos : ∀ a, (![0] : Fin 1 → ℕ) a < (⟨1, ![1]⟩ : Shape).size a) :
    extractAt ![0] (View.ld X (Rect.unit (s := ⟨1, ![A]⟩) ![o] (⟨1, ![1]⟩ : Shape).size inb)) hpos
      = X (ix1 ⟨o, entry1_lt inb⟩) := by
  show X _ = X _
  refine congrArg X (funext fun a => Fin.ext ?_)
  match a with
  | ⟨0, _⟩ => show o + 1 * 0 = o; omega

end Cert.Lib

end
-- ==== Proof.LibWordReads.lean ====
/-
  Integer and conversion operations of an array, read at an index: each is taken entry by entry.
-/
import Idealize.ShloMosaic.Lib.ValueIdx

noncomputable section

namespace Cert.Lib

open Idealize.ShloMosaic

variable {F : FTy → Type} [FloatOps F] {s : Shape} {φ : FTy} {w : ℕ}

/-- An integer comparison of two arrays at an index compares the two entries. -/
theorem cmpi_apply (p : CmpIPredicate) (x y : IVec s w) (i : s.Idx) : cmpi p x y i = IntOp.cmpi p (x i) (y i) := rfl
/-- A bitwise and of two arrays at an index. -/
theorem andi_apply (x y : IVec s w) (i : s.Idx) : andi x y i = IntOp.andi (x i) (y i) := rfl
/-- An integer sum of two arrays at an index. -/
theorem addi_apply (x y : IVec s w) (i : s.Idx) : addi x y i = IntOp.addi (x i) (y i) := rfl
/-- An integer difference of two arrays at an index. -/
theorem subi_apply (x y : IVec s w) (i : s.Idx) : subi x y i = IntOp.subi (x i) (y i) := rfl
/-- A float array truncated to integers, at an index. -/
theorem fptosi_apply (v : ℕ) (x : FVec F s φ) (i : s.Idx) : fptosi v x i = FloatOps.fptosi v (x i) := rfl

end Cert.Lib

end
-- ==== Proof.LibDropUnit.lean ====
/-
  Dropping a unit axis, cutting rows out of a matrix, and two pointwise functions read at an index.

  A column [a, 1] recast as the vector [a], and a stack [a, 1, n] recast as the matrix [a, n], keep every entry at its
  row-major position: the vector at i is the column at (i, 0), the matrix at (p, k) is the stack at (p, 0, k). A
  unit-stride slice of rows o, o+1, …, o+n-1 of an [N, C] matrix read at (p, q) is the matrix at (o + p, q). At the
  extended reals the exponential and the hyperbolic tangent of an array are taken entry by entry. Every lemma is generic
  in the extents and has its indices written by coordinates.
-/
import Idealize.ShloMosaic.Lib.ValueLayout
import Idealize.ShloMosaic.PureOps.Ideal.Laws

noncomputable section

namespace Cert.Lib

open Idealize.ShloMosaic Idealize.ShloMosaic.ValueIdx

variable {α : Type}

/-- A column [a, 1] recast as the vector [a] reads, at i, the column at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A stack [a, 1, n] recast as the matrix [a, n] reads, at (p, k), the stack at (p, 0, k). -/
theorem shapeCast_a1n_an_apply {a n : ℕ} (x : (⟨3, ![a, 1, n]⟩ : Shape).Idx → α)
    (h : (⟨3, ![a, 1, n]⟩ : Shape).ShapeCasts ⟨2, ![a, n]⟩) (p : Fin a) (k : Fin n) :
    shapeCast ⟨2, ![a, n]⟩ x h (ix2 p k) = x (ix3 p (0 : Fin 1) k) :=
  shapeCast_apply x h _ _ (by
    rw [Shape.rowMajor_val_three, Shape.rowMajor_val_two]
    show (p.val * 1 + 0) * n + k.val = p.val * n + k.val
    rw [Nat.mul_one, Nat.add_zero])

/-- Rows o … o+n-1 of an [N, C] matrix, read at (p, q): the matrix at row o + p (named `p'`), column q. -/
theorem slice_rows_apply {N C n : ℕ} (o : ℕ) (x : (⟨2, ![N, C]⟩ : Shape).Idx → α)
    (h : (⟨2, ![N, C]⟩ : Shape).Slices ![o, 0] ⟨2, ![n, C]⟩) (p : Fin n) (q : Fin C) (p' : Fin N)
    (hp : p'.val = o + p.val) :
    extractStridedSlice ⟨2, ![n, C]⟩ ![o, 0] x h (ix2 p q) = x (ix2 p' q) :=
  extractStridedSlice_apply ![o, 0] x h (ix2 p q) (ix2 p' q) (fun a => match a with
    | ⟨0, _⟩ => by show p'.val = o + p.val; exact hp
    | ⟨1, _⟩ => by show q.val = 0 + q.val; rw [Nat.zero_add])

/-- The exponential of an array of extended reals, read at an index. -/
theorem exp_apply {s : Shape} {φ : FTy} (v : FVec Ideal s φ) (i : s.Idx) : exp v i = Ideal.exp (v i) := rfl

/-- The hyperbolic tangent of an array of extended reals, read at an index. -/
theorem tanh_apply {s : Shape} {φ : FTy} (v : FVec Ideal s φ) (i : s.Idx) : tanh v i = Ideal.tanh (v i) := rfl

end Cert.Lib

end
-- ==== Proof.LibOuterStack.lean ====
/-
  A stack of all pairs of rows, read at an index given by coordinates.

  A value computed for every pair (row `p` of one matrix, row `q` of another) against the `n` entries of those rows
  lives in an `[a, b, n]` array.  Three operands meet there.  The first matrix, `[a, n]`, is cast to `[a, 1, n]` and
  repeated along the middle axis; the second, `[b, n]`, is cast to `[1, b, n]` and repeated along the first axis; a
  table of `n` entries, `[1, n]`, is cast to `[1, 1, n]` and repeated along both.  Read at `(p, q, k)` they are the first
  matrix at `(p, k)`, the second at `(q, k)` and the table at `k`.  A sum over the last axis of the stack, read at
  `(p, q)`, is the sum over `k` of the stack at `(p, q, k)`.  Beside them, a one-entry matrix `[1, 1]` repeated to
  `[a, b]` reads that entry everywhere.
-/
import Idealize.ShloMosaic.Lib.ValueLayout
import Idealize.ShloMosaic.PureOps.Ideal.Laws

namespace Cert.Lib

open Idealize.ShloMosaic Idealize.ShloMosaic.ValueIdx

variable {α : Type}

/-- An `[a, n]` matrix cast to `[a, 1, n]` reads, at `(p, u, k)`, the matrix at `(p, k)`. -/
theorem shapeCast_an_a1n_apply {a n : ℕ} (x : (⟨2, ![a, n]⟩ : Shape).Idx → α)
    (h : (⟨2, ![a, n]⟩ : Shape).ShapeCasts ⟨3, ![a, 1, n]⟩) (p : Fin a) (u : Fin 1) (k : Fin n) :
    shapeCast ⟨3, ![a, 1, n]⟩ x h (ix3 p u k) = x (ix2 p k) :=
  shapeCast_apply x h _ _ (by
    have hu : u.val = 0 := by omega
    rw [Shape.rowMajor_val_two, Shape.rowMajor_val_three]
    show p.val * n + k.val = (p.val * 1 + u.val) * n + k.val
    rw [hu, Nat.mul_one, Nat.add_zero])

/-- An `[a, 1, n]` array repeated along its middle axis to `[a, b, n]` reads, at `(p, q, k)`, the operand at `(p, 0, k)`. -/
theorem broadcastTo_a1n_abn_apply {a b n : ℕ} (x : (⟨3, ![a, 1, n]⟩ : Shape).Idx → α)
    (h : (⟨3, ![a, 1, n]⟩ : Shape).Broadcasts ⟨3, ![a, b, n]⟩) (p : Fin a) (q : Fin b) (k : Fin n) :
    broadcastTo ⟨3, ![a, b, n]⟩ x h (ix3 p q k) = x (ix3 p (0 : Fin 1) k) := by
  refine broadcastTo_apply x h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if n = 1 then 0 else k.val
    split
    · have := k.isLt; omega
    · rfl

/-- A `[1, b, n]` array repeated along its first axis to `[a, b, n]` reads, at `(p, q, k)`, the operand at `(0, q, k)`. -/
theorem broadcastTo_1bn_abn_apply {a b n : ℕ} (x : (⟨3, ![1, b, n]⟩ : Shape).Idx → α)
    (h : (⟨3, ![1, b, n]⟩ : Shape).Broadcasts ⟨3, ![a, b, n]⟩) (p : Fin a) (q : Fin b) (k : Fin n) :
    broadcastTo ⟨3, ![a, b, n]⟩ x h (ix3 p q k) = x (ix3 (0 : Fin 1) q k) := by
  refine broadcastTo_apply x h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if n = 1 then 0 else k.val
    split
    · have := k.isLt; omega
    · rfl

/-- A `[1, 1, n]` array repeated along its first two axes to `[a, b, n]` reads, at `(p, q, k)`, the operand at `(0, 0, k)`. -/
theorem broadcastTo_11n_abn_apply {a b n : ℕ} (x : (⟨3, ![1, 1, n]⟩ : Shape).Idx → α)
    (h : (⟨3, ![1, 1, n]⟩ : Shape).Broadcasts ⟨3, ![a, b, n]⟩) (p : Fin a) (q : Fin b) (k : Fin n) :
    broadcastTo ⟨3, ![a, b, n]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- A one-entry matrix repeated to `[a, b]` reads that entry everywhere. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

/-- Over the stack's last axis, the index above `(p, q)` with coordinate `k` inserted is `(p, q, k)`. -/
theorem lift_last_ix2 {a b n : ℕ} (h : (⟨3, ![a, b, n]⟩ : Shape).Reduces [2] ⟨2, ![a, b]⟩) (p : Fin a) (q : Fin b) (k : Fin n) :
    h.lift (ix2 p q) k = ix3 p q k := by
  funext c
  apply Fin.ext
  match c with
  | ⟨0, _⟩ => rfl
  | ⟨1, _⟩ => rfl
  | ⟨2, _⟩ => rfl

/-- At the ideal values, a sum over the last axis of an `[a, b, n]` stack, read at `(p, q)`, is the sum over `k` of the
    stack at `(p, q, k)`. -/
theorem laneSum_apply {a b n : ℕ} {φ : FTy} (src : FVec Ideal ⟨3, ![a, b, n]⟩ φ) (acc : BitVec φ.bits)
    (h : (⟨3, ![a, b, n]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin n, src (ix3 p q k) := by
  refine (Ideal.multiReduction_add_single src acc h hφ hacc (ix2 p q)).trans ?_
  exact Finset.sum_congr rfl fun k _ => congrArg src (lift_last_ix2 h p q k)

end Cert.Lib
-- ==== Proof.PlanesDenseA.lean ====
/-
  The kernel body's stored planes, read at an element: dense channels. Each plane is the body's arithmetic on its loaded feature planes, mask block and parameter entries; pushing the index through the entrywise operations, the unit-axis casts and the loads leaves the dense channel of Cell.lean, term for term.
-/
import proofs.«166924_j70798240907696_2_alg».proof.Proof.Gen.KernelIdeal.Frame
import proofs.«166924_j70798240907696_2_alg».proof.Proof.Planes
import proofs.«166924_j70798240907696_2_alg».proof.Proof.LibBlockReads
import proofs.«166924_j70798240907696_2_alg».proof.Proof.LibWordReads
import proofs.«166924_j70798240907696_2_alg».proof.Proof.LibDropUnit
import proofs.«166924_j70798240907696_2_alg».proof.Proof.LibOuterStack

set_option maxRecDepth 16384

noncomputable section

namespace Cert.Elements

open Idealize.ShloMosaic Idealize.ShloMosaic.ValueIdx Cert.KernelIdeal Cert.KernelIdeal.Gen

variable (x0 : Vec Ideal S512x7x128 .f32) (x1 : Vec Ideal S512x128 .f32) (x2 : Vec Ideal S16x5 .f32)
  (x3 : Vec Ideal S16 .f32) (x4 : Vec Ideal S25x8 .f32)

/-- The plane the body stores for channel 0, read at row p and lane q, is dense channel 0 of element (p, q) of the block. -/
theorem channel_0 (p : Fin 512) (u : Fin 1) (q : Fin 128) :
    (k0_pay9 (View.ld x1 r0_0) (k0_pay2 (View.ld x1 r0_0) (View.ld x0 r0_1)) (k0_pay3 (View.ld x1 r0_0) (View.ld x0 r0_2)) (k0_pay4 (View.ld x1 r0_0) (View.ld x0 r0_3)) (k0_pay5 (View.ld x1 r0_0) (View.ld x0 r0_4)) (k0_pay6 (View.ld x1 r0_0) (View.ld x0 r0_5)) (k0_pay8 (View.ld x3 r0_7)) (View.ld x2 r0_8) (View.ld x2 r0_9) (View.ld x2 r0_10) (View.ld x2 r0_11) (View.ld x2 r0_12) : FVec Ideal S512x1x128 .f32) (ix3 p u q)
      = denseAt (R := 512) x0 x1 x2 x3 ⟨0, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 1, read at row p and lane q, is dense channel 1 of element (p, q) of the block. -/
theorem channel_1 (p : Fin 512) (u : Fin 1) (q : Fin 128) :
    (k0_pay11 (View.ld x1 r0_0) (k0_pay3 (View.ld x1 r0_0) (View.ld x0 r0_2)) (k0_pay4 (View.ld x1 r0_0) (View.ld x0 r0_3)) (k0_pay5 (View.ld x1 r0_0) (View.ld x0 r0_4)) (k0_pay6 (View.ld x1 r0_0) (View.ld x0 r0_5)) (k0_pay10 (k0_pay2 (View.ld x1 r0_0) (View.ld x0 r0_1)) (View.ld x3 r0_14) (View.ld x2 r0_15)) (View.ld x2 r0_16) (View.ld x2 r0_17) (View.ld x2 r0_18) (View.ld x2 r0_19) : FVec Ideal S512x1x128 .f32) (ix3 p u q)
      = denseAt (R := 512) x0 x1 x2 x3 ⟨1, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 2, read at row p and lane q, is dense channel 2 of element (p, q) of the block. -/
theorem channel_2 (p : Fin 512) (u : Fin 1) (q : Fin 128) :
    (k0_pay14 (View.ld x1 r0_0) (k0_pay4 (View.ld x1 r0_0) (View.ld x0 r0_3)) (k0_pay5 (View.ld x1 r0_0) (View.ld x0 r0_4)) (k0_pay6 (View.ld x1 r0_0) (View.ld x0 r0_5)) (k0_pay12 (k0_pay2 (View.ld x1 r0_0) (View.ld x0 r0_1)) (k0_pay3 (View.ld x1 r0_0) (View.ld x0 r0_2)) (View.ld x3 r0_21) (View.ld x2 r0_22) (View.ld x2 r0_23)) (k0_pay13 (View.ld x2 r0_24)) (View.ld x2 r0_25) (View.ld x2 r0_26) : FVec Ideal S512x1x128 .f32) (ix3 p u q)
      = denseAt (R := 512) x0 x1 x2 x3 ⟨2, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 3, read at row p and lane q, is dense channel 3 of element (p, q) of the block. -/
theorem channel_3 (p : Fin 512) (u : Fin 1) (q : Fin 128) :
    (k0_pay16 (View.ld x1 r0_0) (k0_pay6 (View.ld x1 r0_0) (View.ld x0 r0_5)) (k0_pay15 (k0_pay2 (View.ld x1 r0_0) (View.ld x0 r0_1)) (k0_pay3 (View.ld x1 r0_0) (View.ld x0 r0_2)) (k0_pay4 (View.ld x1 r0_0) (View.ld x0 r0_3)) (k0_pay5 (View.ld x1 r0_0) (View.ld x0 r0_4)) (View.ld x3 r0_28) (View.ld x2 r0_29) (View.ld x2 r0_30) (View.ld x2 r0_31) (View.ld x2 r0_32)) (View.ld x2 r0_33) : FVec Ideal S512x1x128 .f32) (ix3 p u q)
      = denseAt (R := 512) x0 x1 x2 x3 ⟨3, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 4, read at row p and lane q, is dense channel 4 of element (p, q) of the block. -/
theorem channel_4 (p : Fin 512) (u : Fin 1) (q : Fin 128) :
    (k0_pay18 (k0_pay17 (View.ld x1 r0_0) (k0_pay2 (View.ld x1 r0_0) (View.ld x0 r0_1)) (k0_pay3 (View.ld x1 r0_0) (View.ld x0 r0_2)) (k0_pay4 (View.ld x1 r0_0) (View.ld x0 r0_3)) (k0_pay5 (View.ld x1 r0_0) (View.ld x0 r0_4)) (k0_pay6 (View.ld x1 r0_0) (View.ld x0 r0_5)) (View.ld x3 r0_35) (View.ld x2 r0_36) (View.ld x2 r0_37) (View.ld x2 r0_38) (View.ld x2 r0_39) (View.ld x2 r0_40)) : FVec Ideal S512x1x128 .f32) (ix3 p u q)
      = denseAt (R := 512) x0 x1 x2 x3 ⟨4, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 5, read at row p and lane q, is dense channel 5 of element (p, q) of the block. -/
theorem channel_5 (p : Fin 512) (u : Fin 1) (q : Fin 128) :
    (k0_pay19 (View.ld x1 r0_0) (k0_pay2 (View.ld x1 r0_0) (View.ld x0 r0_1)) (k0_pay3 (View.ld x1 r0_0) (View.ld x0 r0_2)) (k0_pay4 (View.ld x1 r0_0) (View.ld x0 r0_3)) (k0_pay5 (View.ld x1 r0_0) (View.ld x0 r0_4)) (k0_pay6 (View.ld x1 r0_0) (View.ld x0 r0_5)) (View.ld x3 r0_42) (View.ld x2 r0_43) (View.ld x2 r0_44) (View.ld x2 r0_45) (View.ld x2 r0_46) (View.ld x2 r0_47) : FVec Ideal S512x1x128 .f32) (ix3 p u q)
      = denseAt (R := 512) x0 x1 x2 x3 ⟨5, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 6, read at row p and lane q, is dense channel 6 of element (p, q) of the block. -/
theorem channel_6 (p : Fin 512) (u : Fin 1) (q : Fin 128) :
    (k0_pay21 (View.ld x1 r0_0) (k0_pay2 (View.ld x1 r0_0) (View.ld x0 r0_1)) (k0_pay3 (View.ld x1 r0_0) (View.ld x0 r0_2)) (k0_pay4 (View.ld x1 r0_0) (View.ld x0 r0_3)) (k0_pay5 (View.ld x1 r0_0) (View.ld x0 r0_4)) (k0_pay6 (View.ld x1 r0_0) (View.ld x0 r0_5)) (k0_pay20 (View.ld x3 r0_49)) (View.ld x2 r0_50) (View.ld x2 r0_51) (View.ld x2 r0_52) (View.ld x2 r0_53) (View.ld x2 r0_54) : FVec Ideal S512x1x128 .f32) (ix3 p u q)
      = denseAt (R := 512) x0 x1 x2 x3 ⟨6, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 7, read at row p and lane q, is dense channel 7 of element (p, q) of the block. -/
theorem channel_7 (p : Fin 512) (u : Fin 1) (q : Fin 128) :
    (k0_pay23 (View.ld x1 r0_0) (k0_pay3 (View.ld x1 r0_0) (View.ld x0 r0_2)) (k0_pay4 (View.ld x1 r0_0) (View.ld x0 r0_3)) (k0_pay5 (View.ld x1 r0_0) (View.ld x0 r0_4)) (k0_pay6 (View.ld x1 r0_0) (View.ld x0 r0_5)) (k0_pay22 (k0_pay2 (View.ld x1 r0_0) (View.ld x0 r0_1)) (View.ld x3 r0_56) (View.ld x2 r0_57)) (View.ld x2 r0_58) (View.ld x2 r0_59) (View.ld x2 r0_60) (View.ld x2 r0_61) : FVec Ideal S512x1x128 .f32) (ix3 p u q)
      = denseAt (R := 512) x0 x1 x2 x3 ⟨7, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

end Cert.Elements

end
-- ==== Proof.PlanesDenseB.lean ====
/-
  The kernel body's stored planes, read at an element: dense channels. Each plane is the body's arithmetic on its loaded feature planes, mask block and parameter entries; pushing the index through the entrywise operations, the unit-axis casts and the loads leaves the dense channel of Cell.lean, term for term.
-/
import proofs.«166924_j70798240907696_2_alg».proof.Proof.Gen.KernelIdeal.Frame
import proofs.«166924_j70798240907696_2_alg».proof.Proof.Planes
import proofs.«166924_j70798240907696_2_alg».proof.Proof.LibBlockReads
import proofs.«166924_j70798240907696_2_alg».proof.Proof.LibWordReads
import proofs.«166924_j70798240907696_2_alg».proof.Proof.LibDropUnit
import proofs.«166924_j70798240907696_2_alg».proof.Proof.LibOuterStack

set_option maxRecDepth 16384

noncomputable section

namespace Cert.Elements

open Idealize.ShloMosaic Idealize.ShloMosaic.ValueIdx Cert.KernelIdeal Cert.KernelIdeal.Gen

variable (x0 : Vec Ideal S512x7x128 .f32) (x1 : Vec Ideal S512x128 .f32) (x2 : Vec Ideal S16x5 .f32)
  (x3 : Vec Ideal S16 .f32) (x4 : Vec Ideal S25x8 .f32)

/-- The plane the body stores for channel 8, read at row p and lane q, is dense channel 8 of element (p, q) of the block. -/
theorem channel_8 (p : Fin 512) (u : Fin 1) (q : Fin 128) :
    (k0_pay26 (View.ld x1 r0_0) (k0_pay4 (View.ld x1 r0_0) (View.ld x0 r0_3)) (k0_pay5 (View.ld x1 r0_0) (View.ld x0 r0_4)) (k0_pay6 (View.ld x1 r0_0) (View.ld x0 r0_5)) (k0_pay24 (k0_pay2 (View.ld x1 r0_0) (View.ld x0 r0_1)) (k0_pay3 (View.ld x1 r0_0) (View.ld x0 r0_2)) (View.ld x3 r0_63) (View.ld x2 r0_64) (View.ld x2 r0_65)) (k0_pay25 (View.ld x2 r0_66)) (View.ld x2 r0_67) (View.ld x2 r0_68) : FVec Ideal S512x1x128 .f32) (ix3 p u q)
      = denseAt (R := 512) x0 x1 x2 x3 ⟨8, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 9, read at row p and lane q, is dense channel 9 of element (p, q) of the block. -/
theorem channel_9 (p : Fin 512) (u : Fin 1) (q : Fin 128) :
    (k0_pay28 (View.ld x1 r0_0) (k0_pay6 (View.ld x1 r0_0) (View.ld x0 r0_5)) (k0_pay27 (k0_pay2 (View.ld x1 r0_0) (View.ld x0 r0_1)) (k0_pay3 (View.ld x1 r0_0) (View.ld x0 r0_2)) (k0_pay4 (View.ld x1 r0_0) (View.ld x0 r0_3)) (k0_pay5 (View.ld x1 r0_0) (View.ld x0 r0_4)) (View.ld x3 r0_70) (View.ld x2 r0_71) (View.ld x2 r0_72) (View.ld x2 r0_73) (View.ld x2 r0_74)) (View.ld x2 r0_75) : FVec Ideal S512x1x128 .f32) (ix3 p u q)
      = denseAt (R := 512) x0 x1 x2 x3 ⟨9, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 10, read at row p and lane q, is dense channel 10 of element (p, q) of the block. -/
theorem channel_10 (p : Fin 512) (u : Fin 1) (q : Fin 128) :
    (k0_pay30 (k0_pay29 (View.ld x1 r0_0) (k0_pay2 (View.ld x1 r0_0) (View.ld x0 r0_1)) (k0_pay3 (View.ld x1 r0_0) (View.ld x0 r0_2)) (k0_pay4 (View.ld x1 r0_0) (View.ld x0 r0_3)) (k0_pay5 (View.ld x1 r0_0) (View.ld x0 r0_4)) (k0_pay6 (View.ld x1 r0_0) (View.ld x0 r0_5)) (View.ld x3 r0_77) (View.ld x2 r0_78) (View.ld x2 r0_79) (View.ld x2 r0_80) (View.ld x2 r0_81) (View.ld x2 r0_82)) : FVec Ideal S512x1x128 .f32) (ix3 p u q)
      = denseAt (R := 512) x0 x1 x2 x3 ⟨10, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 11, read at row p and lane q, is dense channel 11 of element (p, q) of the block. -/
theorem channel_11 (p : Fin 512) (u : Fin 1) (q : Fin 128) :
    (k0_pay31 (View.ld x1 r0_0) (k0_pay2 (View.ld x1 r0_0) (View.ld x0 r0_1)) (k0_pay3 (View.ld x1 r0_0) (View.ld x0 r0_2)) (k0_pay4 (View.ld x1 r0_0) (View.ld x0 r0_3)) (k0_pay5 (View.ld x1 r0_0) (View.ld x0 r0_4)) (k0_pay6 (View.ld x1 r0_0) (View.ld x0 r0_5)) (View.ld x3 r0_84) (View.ld x2 r0_85) (View.ld x2 r0_86) (View.ld x2 r0_87) (View.ld x2 r0_88) (View.ld x2 r0_89) : FVec Ideal S512x1x128 .f32) (ix3 p u q)
      = denseAt (R := 512) x0 x1 x2 x3 ⟨11, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 12, read at row p and lane q, is dense channel 12 of element (p, q) of the block. -/
theorem channel_12 (p : Fin 512) (u : Fin 1) (q : Fin 128) :
    (k0_pay33 (View.ld x1 r0_0) (k0_pay2 (View.ld x1 r0_0) (View.ld x0 r0_1)) (k0_pay3 (View.ld x1 r0_0) (View.ld x0 r0_2)) (k0_pay4 (View.ld x1 r0_0) (View.ld x0 r0_3)) (k0_pay5 (View.ld x1 r0_0) (View.ld x0 r0_4)) (k0_pay6 (View.ld x1 r0_0) (View.ld x0 r0_5)) (k0_pay32 (View.ld x3 r0_91)) (View.ld x2 r0_92) (View.ld x2 r0_93) (View.ld x2 r0_94) (View.ld x2 r0_95) (View.ld x2 r0_96) : FVec Ideal S512x1x128 .f32) (ix3 p u q)
      = denseAt (R := 512) x0 x1 x2 x3 ⟨12, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 13, read at row p and lane q, is dense channel 13 of element (p, q) of the block. -/
theorem channel_13 (p : Fin 512) (u : Fin 1) (q : Fin 128) :
    (k0_pay35 (View.ld x1 r0_0) (k0_pay3 (View.ld x1 r0_0) (View.ld x0 r0_2)) (k0_pay4 (View.ld x1 r0_0) (View.ld x0 r0_3)) (k0_pay5 (View.ld x1 r0_0) (View.ld x0 r0_4)) (k0_pay6 (View.ld x1 r0_0) (View.ld x0 r0_5)) (k0_pay34 (k0_pay2 (View.ld x1 r0_0) (View.ld x0 r0_1)) (View.ld x3 r0_98) (View.ld x2 r0_99)) (View.ld x2 r0_100) (View.ld x2 r0_101) (View.ld x2 r0_102) (View.ld x2 r0_103) : FVec Ideal S512x1x128 .f32) (ix3 p u q)
      = denseAt (R := 512) x0 x1 x2 x3 ⟨13, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 14, read at row p and lane q, is dense channel 14 of element (p, q) of the block. -/
theorem channel_14 (p : Fin 512) (u : Fin 1) (q : Fin 128) :
    (k0_pay38 (View.ld x1 r0_0) (k0_pay4 (View.ld x1 r0_0) (View.ld x0 r0_3)) (k0_pay5 (View.ld x1 r0_0) (View.ld x0 r0_4)) (k0_pay6 (View.ld x1 r0_0) (View.ld x0 r0_5)) (k0_pay36 (k0_pay2 (View.ld x1 r0_0) (View.ld x0 r0_1)) (k0_pay3 (View.ld x1 r0_0) (View.ld x0 r0_2)) (View.ld x3 r0_105) (View.ld x2 r0_106) (View.ld x2 r0_107)) (k0_pay37 (View.ld x2 r0_108)) (View.ld x2 r0_109) (View.ld x2 r0_110) : FVec Ideal S512x1x128 .f32) (ix3 p u q)
      = denseAt (R := 512) x0 x1 x2 x3 ⟨14, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 15, read at row p and lane q, is dense channel 15 of element (p, q) of the block. -/
theorem channel_15 (p : Fin 512) (u : Fin 1) (q : Fin 128) :
    (k0_pay40 (View.ld x1 r0_0) (k0_pay6 (View.ld x1 r0_0) (View.ld x0 r0_5)) (k0_pay39 (k0_pay2 (View.ld x1 r0_0) (View.ld x0 r0_1)) (k0_pay3 (View.ld x1 r0_0) (View.ld x0 r0_2)) (k0_pay4 (View.ld x1 r0_0) (View.ld x0 r0_3)) (k0_pay5 (View.ld x1 r0_0) (View.ld x0 r0_4)) (View.ld x3 r0_112) (View.ld x2 r0_113) (View.ld x2 r0_114) (View.ld x2 r0_115) (View.ld x2 r0_116)) (View.ld x2 r0_117) : FVec Ideal S512x1x128 .f32) (ix3 p u q)
      = denseAt (R := 512) x0 x1 x2 x3 ⟨15, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

end Cert.Elements

end
-- ==== Proof.PlanesTableA.lean ====
/-
  The kernel body's stored planes, read at an element: table channels. Each plane is the 25-term sum of equality bits times table entries, times the mask; pushing the index through the entrywise operations, the unit-axis casts and the loads leaves the table channel of Cell.lean, term for term.
-/
import proofs.«166924_j70798240907696_2_alg».proof.Proof.Gen.KernelIdeal.Frame
import proofs.«166924_j70798240907696_2_alg».proof.Proof.Planes
import proofs.«166924_j70798240907696_2_alg».proof.Proof.LibBlockReads
import proofs.«166924_j70798240907696_2_alg».proof.Proof.LibWordReads
import proofs.«166924_j70798240907696_2_alg».proof.Proof.LibDropUnit
import proofs.«166924_j70798240907696_2_alg».proof.Proof.LibOuterStack

set_option maxRecDepth 16384

noncomputable section

namespace Cert.Elements

open Idealize.ShloMosaic Idealize.ShloMosaic.ValueIdx Cert.KernelIdeal Cert.KernelIdeal.Gen

variable (x0 : Vec Ideal S512x7x128 .f32) (x1 : Vec Ideal S512x128 .f32) (x2 : Vec Ideal S16x5 .f32)
  (x3 : Vec Ideal S16 .f32) (x4 : Vec Ideal S25x8 .f32)

/-- The plane the body stores for channel 16, read at row p and lane q, is table channel 0 of element (p, q) of the block. -/
theorem channel_16 (p : Fin 512) (u : Fin 1) (q : Fin 128) :
    (k0_pay51 (View.ld x1 r0_0) (k0_pay7 (View.ld x1 r0_0) (View.ld x0 r0_6)) (k0_pay49 (k0_pay7 (View.ld x1 r0_0) (View.ld x0 r0_6)) (k0_pay47 (k0_pay7 (View.ld x1 r0_0) (View.ld x0 r0_6)) (k0_pay45 (k0_pay7 (View.ld x1 r0_0) (View.ld x0 r0_6)) (k0_pay43 (k0_pay7 (View.ld x1 r0_0) (View.ld x0 r0_6)) (k0_pay41 (k0_pay7 (View.ld x1 r0_0) (View.ld x0 r0_6)) (View.ld x4 r0_119) (View.ld x4 r0_120) (View.ld x4 r0_121)) (k0_pay42 (F := Ideal) (k0_pay7 (View.ld x1 r0_0) (View.ld x0 r0_6))) (View.ld x4 r0_122) (View.ld x4 r0_123) (View.ld x4 r0_124) (View.ld x4 r0_125) (View.ld x4 r0_126)) (k0_pay44 (F := Ideal) (k0_pay7 (View.ld x1 r0_0) (View.ld x0 r0_6))) (View.ld x4 r0_127) (View.ld x4 r0_128) (View.ld x4 r0_129) (View.ld x4 r0_130) (View.ld x4 r0_131)) (k0_pay46 (F := Ideal) (k0_pay7 (View.ld x1 r0_0) (View.ld x0 r0_6))) (View.ld x4 r0_132) (View.ld x4 r0_133) (View.ld x4 r0_134) (View.ld x4 r0_135) (View.ld x4 r0_136)) (k0_pay48 (F := Ideal) (k0_pay7 (View.ld x1 r0_0) (View.ld x0 r0_6))) (View.ld x4 r0_137) (View.ld x4 r0_138) (View.ld x4 r0_139) (View.ld x4 r0_140) (View.ld x4 r0_141)) (k0_pay50 (F := Ideal) (k0_pay7 (View.ld x1 r0_0) (View.ld x0 r0_6))) (View.ld x4 r0_142) (View.ld x4 r0_143) : FVec Ideal S512x1x128 .f32) (ix3 p u q)
      = lookupAt (R := 512) x0 x1 x4 ⟨0, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 17, read at row p and lane q, is table channel 1 of element (p, q) of the block. -/
theorem channel_17 (p : Fin 512) (u : Fin 1) (q : Fin 128) :
    (k0_pay62 (View.ld x1 r0_0) (k0_pay7 (View.ld x1 r0_0) (View.ld x0 r0_6)) (k0_pay60 (k0_pay7 (View.ld x1 r0_0) (View.ld x0 r0_6)) (k0_pay58 (k0_pay7 (View.ld x1 r0_0) (View.ld x0 r0_6)) (k0_pay56 (k0_pay7 (View.ld x1 r0_0) (View.ld x0 r0_6)) (k0_pay54 (k0_pay7 (View.ld x1 r0_0) (View.ld x0 r0_6)) (k0_pay52 (k0_pay7 (View.ld x1 r0_0) (View.ld x0 r0_6)) (View.ld x4 r0_145) (View.ld x4 r0_146)) (k0_pay53 (F := Ideal) (k0_pay7 (View.ld x1 r0_0) (View.ld x0 r0_6))) (View.ld x4 r0_147) (View.ld x4 r0_148) (View.ld x4 r0_149) (View.ld x4 r0_150) (View.ld x4 r0_151)) (k0_pay55 (F := Ideal) (k0_pay7 (View.ld x1 r0_0) (View.ld x0 r0_6))) (View.ld x4 r0_152) (View.ld x4 r0_153) (View.ld x4 r0_154) (View.ld x4 r0_155) (View.ld x4 r0_156)) (k0_pay57 (F := Ideal) (k0_pay7 (View.ld x1 r0_0) (View.ld x0 r0_6))) (View.ld x4 r0_157) (View.ld x4 r0_158) (View.ld x4 r0_159) (View.ld x4 r0_160) (View.ld x4 r0_161)) (k0_pay59 (F := Ideal) (k0_pay7 (View.ld x1 r0_0) (View.ld x0 r0_6))) (View.ld x4 r0_162) (View.ld x4 r0_163) (View.ld x4 r0_164) (View.ld x4 r0_165) (View.ld x4 r0_166)) (k0_pay61 (F := Ideal) (k0_pay7 (View.ld x1 r0_0) (View.ld x0 r0_6))) (View.ld x4 r0_167) (View.ld x4 r0_168) (View.ld x4 r0_169) : FVec Ideal S512x1x128 .f32) (ix3 p u q)
      = lookupAt (R := 512) x0 x1 x4 ⟨1, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 18, read at row p and lane q, is table channel 2 of element (p, q) of the block. -/
theorem channel_18 (p : Fin 512) (u : Fin 1) (q : Fin 128) :
    (k0_pay78 (View.ld x1 r0_0) (k0_pay7 (View.ld x1 r0_0) (View.ld x0 r0_6)) (k0_pay75 (k0_pay7 (View.ld x1 r0_0) (View.ld x0 r0_6)) (k0_pay72 (k0_pay7 (View.ld x1 r0_0) (View.ld x0 r0_6)) (k0_pay69 (k0_pay7 (View.ld x1 r0_0) (View.ld x0 r0_6)) (k0_pay66 (k0_pay7 (View.ld x1 r0_0) (View.ld x0 r0_6)) (k0_pay63 (k0_pay7 (View.ld x1 r0_0) (View.ld x0 r0_6)) (View.ld x4 r0_171)) (k0_pay64 (F := Ideal) (k0_pay7 (View.ld x1 r0_0) (View.ld x0 r0_6))) (k0_pay65 (View.ld x4 r0_172)) (View.ld x4 r0_173) (View.ld x4 r0_174) (View.ld x4 r0_175) (View.ld x4 r0_176)) (k0_pay67 (F := Ideal) (k0_pay7 (View.ld x1 r0_0) (View.ld x0 r0_6))) (k0_pay68 (View.ld x4 r0_177)) (View.ld x4 r0_178) (View.ld x4 r0_179) (View.ld x4 r0_180) (View.ld x4 r0_181)) (k0_pay70 (F := Ideal) (k0_pay7 (View.ld x1 r0_0) (View.ld x0 r0_6))) (k0_pay71 (View.ld x4 r0_182)) (View.ld x4 r0_183) (View.ld x4 r0_184) (View.ld x4 r0_185) (View.ld x4 r0_186)) (k0_pay73 (F := Ideal) (k0_pay7 (View.ld x1 r0_0) (View.ld x0 r0_6))) (k0_pay74 (View.ld x4 r0_187)) (View.ld x4 r0_188) (View.ld x4 r0_189) (View.ld x4 r0_190) (View.ld x4 r0_191)) (k0_pay76 (F := Ideal) (k0_pay7 (View.ld x1 r0_0) (View.ld x0 r0_6))) (k0_pay77 (View.ld x4 r0_192)) (View.ld x4 r0_193) (View.ld x4 r0_194) (View.ld x4 r0_195) : FVec Ideal S512x1x128 .f32) (ix3 p u q)
      = lookupAt (R := 512) x0 x1 x4 ⟨2, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 19, read at row p and lane q, is table channel 3 of element (p, q) of the block. -/
theorem channel_19 (p : Fin 512) (u : Fin 1) (q : Fin 128) :
    (k0_pay89 (View.ld x1 r0_0) (k0_pay7 (View.ld x1 r0_0) (View.ld x0 r0_6)) (k0_pay87 (k0_pay7 (View.ld x1 r0_0) (View.ld x0 r0_6)) (k0_pay85 (k0_pay7 (View.ld x1 r0_0) (View.ld x0 r0_6)) (k0_pay83 (k0_pay7 (View.ld x1 r0_0) (View.ld x0 r0_6)) (k0_pay81 (k0_pay7 (View.ld x1 r0_0) (View.ld x0 r0_6)) (k0_pay79 (F := Ideal)) (k0_pay80 (k0_pay7 (View.ld x1 r0_0) (View.ld x0 r0_6)) (View.ld x4 r0_197)) (View.ld x4 r0_198) (View.ld x4 r0_199) (View.ld x4 r0_200) (View.ld x4 r0_201)) (k0_pay82 (k0_pay7 (View.ld x1 r0_0) (View.ld x0 r0_6)) (View.ld x4 r0_202)) (View.ld x4 r0_203) (View.ld x4 r0_204) (View.ld x4 r0_205) (View.ld x4 r0_206)) (k0_pay84 (k0_pay7 (View.ld x1 r0_0) (View.ld x0 r0_6)) (View.ld x4 r0_207)) (View.ld x4 r0_208) (View.ld x4 r0_209) (View.ld x4 r0_210) (View.ld x4 r0_211)) (k0_pay86 (k0_pay7 (View.ld x1 r0_0) (View.ld x0 r0_6)) (View.ld x4 r0_212)) (View.ld x4 r0_213) (View.ld x4 r0_214) (View.ld x4 r0_215) (View.ld x4 r0_216)) (k0_pay88 (k0_pay7 (View.ld x1 r0_0) (View.ld x0 r0_6)) (View.ld x4 r0_217)) (View.ld x4 r0_218) (View.ld x4 r0_219) (View.ld x4 r0_220) (View.ld x4 r0_221) : FVec Ideal S512x1x128 .f32) (ix3 p u q)
      = lookupAt (R := 512) x0 x1 x4 ⟨3, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

end Cert.Elements

end
-- ==== Proof.PlanesTableB.lean ====
/-
  The kernel body's stored planes, read at an element: table channels. Each plane is the 25-term sum of equality bits times table entries, times the mask; pushing the index through the entrywise operations, the unit-axis casts and the loads leaves the table channel of Cell.lean, term for term.
-/
import proofs.«166924_j70798240907696_2_alg».proof.Proof.Gen.KernelIdeal.Frame
import proofs.«166924_j70798240907696_2_alg».proof.Proof.Planes
import proofs.«166924_j70798240907696_2_alg».proof.Proof.LibBlockReads
import proofs.«166924_j70798240907696_2_alg».proof.Proof.LibWordReads
import proofs.«166924_j70798240907696_2_alg».proof.Proof.LibDropUnit
import proofs.«166924_j70798240907696_2_alg».proof.Proof.LibOuterStack

set_option maxRecDepth 16384

noncomputable section

namespace Cert.Elements

open Idealize.ShloMosaic Idealize.ShloMosaic.ValueIdx Cert.KernelIdeal Cert.KernelIdeal.Gen

variable (x0 : Vec Ideal S512x7x128 .f32) (x1 : Vec Ideal S512x128 .f32) (x2 : Vec Ideal S16x5 .f32)
  (x3 : Vec Ideal S16 .f32) (x4 : Vec Ideal S25x8 .f32)

/-- The plane the body stores for channel 20, read at row p and lane q, is table channel 4 of element (p, q) of the block. -/
theorem channel_20 (p : Fin 512) (u : Fin 1) (q : Fin 128) :
    (k0_pay96 (k0_pay95 (View.ld x1 r0_0) (k0_pay7 (View.ld x1 r0_0) (View.ld x0 r0_6)) (k0_pay94 (k0_pay7 (View.ld x1 r0_0) (View.ld x0 r0_6)) (k0_pay93 (k0_pay7 (View.ld x1 r0_0) (View.ld x0 r0_6)) (k0_pay92 (k0_pay7 (View.ld x1 r0_0) (View.ld x0 r0_6)) (k0_pay91 (k0_pay7 (View.ld x1 r0_0) (View.ld x0 r0_6)) (k0_pay90 (F := Ideal)) 0#32 (View.ld x4 r0_223) (View.ld x4 r0_224) (View.ld x4 r0_225) (View.ld x4 r0_226) (View.ld x4 r0_227)) 5#32 (View.ld x4 r0_228) (View.ld x4 r0_229) (View.ld x4 r0_230) (View.ld x4 r0_231) (View.ld x4 r0_232)) 10#32 (View.ld x4 r0_233) (View.ld x4 r0_234) (View.ld x4 r0_235) (View.ld x4 r0_236) (View.ld x4 r0_237)) 15#32 (View.ld x4 r0_238) (View.ld x4 r0_239) (View.ld x4 r0_240) (View.ld x4 r0_241) (View.ld x4 r0_242)) 20#32 (View.ld x4 r0_243) (View.ld x4 r0_244) (View.ld x4 r0_245) (View.ld x4 r0_246) (View.ld x4 r0_247)) : FVec Ideal S512x1x128 .f32) (ix3 p u q)
      = lookupAt (R := 512) x0 x1 x4 ⟨4, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 21, read at row p and lane q, is table channel 5 of element (p, q) of the block. -/
theorem channel_21 (p : Fin 512) (u : Fin 1) (q : Fin 128) :
    (k0_pay107 (View.ld x1 r0_0) (k0_pay105 (k0_pay7 (View.ld x1 r0_0) (View.ld x0 r0_6)) (k0_pay103 (k0_pay7 (View.ld x1 r0_0) (View.ld x0 r0_6)) (k0_pay101 (k0_pay7 (View.ld x1 r0_0) (View.ld x0 r0_6)) (k0_pay99 (k0_pay7 (View.ld x1 r0_0) (View.ld x0 r0_6)) (k0_pay97 (k0_pay7 (View.ld x1 r0_0) (View.ld x0 r0_6)) (View.ld x4 r0_249) (View.ld x4 r0_250) (View.ld x4 r0_251) (View.ld x4 r0_252)) (k0_pay98 (k0_pay7 (View.ld x1 r0_0) (View.ld x0 r0_6))) (View.ld x4 r0_253) (View.ld x4 r0_254) (View.ld x4 r0_255) (View.ld x4 r0_256) (View.ld x4 r0_257)) (k0_pay100 (k0_pay7 (View.ld x1 r0_0) (View.ld x0 r0_6))) (View.ld x4 r0_258) (View.ld x4 r0_259) (View.ld x4 r0_260) (View.ld x4 r0_261) (View.ld x4 r0_262)) (k0_pay102 (k0_pay7 (View.ld x1 r0_0) (View.ld x0 r0_6))) (View.ld x4 r0_263) (View.ld x4 r0_264) (View.ld x4 r0_265) (View.ld x4 r0_266) (View.ld x4 r0_267)) (k0_pay104 (k0_pay7 (View.ld x1 r0_0) (View.ld x0 r0_6))) (View.ld x4 r0_268) (View.ld x4 r0_269) (View.ld x4 r0_270) (View.ld x4 r0_271) (View.ld x4 r0_272)) (k0_pay106 (k0_pay7 (View.ld x1 r0_0) (View.ld x0 r0_6))) (View.ld x4 r0_273) : FVec Ideal S512x1x128 .f32) (ix3 p u q)
      = lookupAt (R := 512) x0 x1 x4 ⟨5, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 22, read at row p and lane q, is table channel 6 of element (p, q) of the block. -/
theorem channel_22 (p : Fin 512) (u : Fin 1) (q : Fin 128) :
    (k0_pay118 (View.ld x1 r0_0) (k0_pay7 (View.ld x1 r0_0) (View.ld x0 r0_6)) (k0_pay116 (k0_pay7 (View.ld x1 r0_0) (View.ld x0 r0_6)) (k0_pay114 (k0_pay7 (View.ld x1 r0_0) (View.ld x0 r0_6)) (k0_pay112 (k0_pay7 (View.ld x1 r0_0) (View.ld x0 r0_6)) (k0_pay110 (k0_pay7 (View.ld x1 r0_0) (View.ld x0 r0_6)) (k0_pay108 (k0_pay7 (View.ld x1 r0_0) (View.ld x0 r0_6)) (View.ld x4 r0_275) (View.ld x4 r0_276) (View.ld x4 r0_277)) (k0_pay109 (F := Ideal) (k0_pay7 (View.ld x1 r0_0) (View.ld x0 r0_6))) (View.ld x4 r0_278) (View.ld x4 r0_279) (View.ld x4 r0_280) (View.ld x4 r0_281) (View.ld x4 r0_282)) (k0_pay111 (F := Ideal) (k0_pay7 (View.ld x1 r0_0) (View.ld x0 r0_6))) (View.ld x4 r0_283) (View.ld x4 r0_284) (View.ld x4 r0_285) (View.ld x4 r0_286) (View.ld x4 r0_287)) (k0_pay113 (F := Ideal) (k0_pay7 (View.ld x1 r0_0) (View.ld x0 r0_6))) (View.ld x4 r0_288) (View.ld x4 r0_289) (View.ld x4 r0_290) (View.ld x4 r0_291) (View.ld x4 r0_292)) (k0_pay115 (F := Ideal) (k0_pay7 (View.ld x1 r0_0) (View.ld x0 r0_6))) (View.ld x4 r0_293) (View.ld x4 r0_294) (View.ld x4 r0_295) (View.ld x4 r0_296) (View.ld x4 r0_297)) (k0_pay117 (F := Ideal) (k0_pay7 (View.ld x1 r0_0) (View.ld x0 r0_6))) (View.ld x4 r0_298) (View.ld x4 r0_299) : FVec Ideal S512x1x128 .f32) (ix3 p u q)
      = lookupAt (R := 512) x0 x1 x4 ⟨6, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

/-- The plane the body stores for channel 23, read at row p and lane q, is table channel 7 of element (p, q) of the block. -/
theorem channel_23 (p : Fin 512) (u : Fin 1) (q : Fin 128) :
    (k0_pay1 (View.ld x1 r0_0) (k0_pay7 (View.ld x1 r0_0) (View.ld x0 r0_6)) (k0_pay129 (k0_pay127 (k0_pay7 (View.ld x1 r0_0) (View.ld x0 r0_6)) (k0_pay125 (k0_pay7 (View.ld x1 r0_0) (View.ld x0 r0_6)) (k0_pay123 (k0_pay7 (View.ld x1 r0_0) (View.ld x0 r0_6)) (k0_pay121 (k0_pay7 (View.ld x1 r0_0) (View.ld x0 r0_6)) (k0_pay119 (k0_pay7 (View.ld x1 r0_0) (View.ld x0 r0_6)) (View.ld x4 r0_301) (View.ld x4 r0_302)) (k0_pay120 (F := Ideal) (k0_pay7 (View.ld x1 r0_0) (View.ld x0 r0_6))) (View.ld x4 r0_303) (View.ld x4 r0_304) (View.ld x4 r0_305) (View.ld x4 r0_306) (View.ld x4 r0_307)) (k0_pay122 (F := Ideal) (k0_pay7 (View.ld x1 r0_0) (View.ld x0 r0_6))) (View.ld x4 r0_308) (View.ld x4 r0_309) (View.ld x4 r0_310) (View.ld x4 r0_311) (View.ld x4 r0_312)) (k0_pay124 (F := Ideal) (k0_pay7 (View.ld x1 r0_0) (View.ld x0 r0_6))) (View.ld x4 r0_313) (View.ld x4 r0_314) (View.ld x4 r0_315) (View.ld x4 r0_316) (View.ld x4 r0_317)) (k0_pay126 (F := Ideal) (k0_pay7 (View.ld x1 r0_0) (View.ld x0 r0_6))) (View.ld x4 r0_318) (View.ld x4 r0_319) (View.ld x4 r0_320) (View.ld x4 r0_321) (View.ld x4 r0_322)) (k0_pay128 (F := Ideal) (k0_pay7 (View.ld x1 r0_0) (View.ld x0 r0_6))) (View.ld x4 r0_323)) (View.ld x4 r0_324) (View.ld x4 r0_325) : FVec Ideal S512x1x128 .f32) (ix3 p u q)
      = lookupAt (R := 512) x0 x1 x4 ⟨7, by decide⟩ p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
  rw [Cert.Lib.shapeCast_an_a1n_apply]
  simp only [mulf_apply, addf_apply, maximumf_apply, broadcast_apply, sitofp_apply, extui_apply, select_apply,
    Cert.Lib.cmpi_apply, Cert.Lib.andi_apply, Cert.Lib.addi_apply, Cert.Lib.subi_apply, Cert.Lib.fptosi_apply,
    Cert.Lib.shapeCast_a1n_an_apply, Cert.Lib.ld_entry2, Cert.Lib.ld_entry1]
  repeat rw [Cert.Lib.ld_plane_apply]
  repeat rw [Cert.Lib.ld_whole2_apply]
  rfl

end Cert.Elements

end
-- ==== Proof.PlanesBlock.lean ====
/-
  What the kernel body leaves in its output block: the 24 channels of the block's 512 × 128 elements.

  The body stores 24 planes [512, 1, 128], one per channel, which tile the [512, 24, 128] block. Plane c read at
  (p, q) is channel c of element (p, q) (the four files of channel lemmas), and the plane's rectangle places (p, 0, q)
  at (p, c, q); so whichever plane covers an index of the block, the block holds `planes` there.
-/
import proofs.«166924_j70798240907696_2_alg».proof.Proof.PlanesDenseA
import proofs.«166924_j70798240907696_2_alg».proof.Proof.PlanesDenseB
import proofs.«166924_j70798240907696_2_alg».proof.Proof.PlanesTableA
import proofs.«166924_j70798240907696_2_alg».proof.Proof.PlanesTableB

set_option maxRecDepth 16384

noncomputable section

namespace Cert.Elements

open Idealize.ShloMosaic Idealize.ShloMosaic.ValueIdx Cert.KernelIdeal Cert.KernelIdeal.Gen

variable (x0 : Vec Ideal S512x7x128 .f32) (x1 : Vec Ideal S512x128 .f32) (x2 : Vec Ideal S16x5 .f32)
  (x3 : Vec Ideal S16 .f32) (x4 : Vec Ideal S25x8 .f32)

/-- The output block after the body is `planes` of the five input blocks. -/
theorem out_eq_planes : out0_5 (F := Ideal) x0 x1 x2 x3 x4 = planes (R := 512) x0 x1 x2 x3 x4 := by
  funext y
  unfold out0_5
  refine View.canon_apply_of_pieces (Val := Elt Ideal) (planes (R := 512) x0 x1 x2 x3 x4) _ ?_ y
    (cover0_5 _ _ _ _ _ _ _ _ _ _ _ _ _ _ _ _ _ _ _ _ _ _ _ _ y)
  intro pc hpc
  simp only [List.mem_cons, List.mem_nil_iff, or_false] at hpc
  rcases hpc with rfl | rfl | rfl | rfl | rfl | rfl | rfl | rfl | rfl | rfl | rfl | rfl | rfl | rfl | rfl | rfl | rfl | rfl | rfl | rfl | rfl | rfl | rfl | rfl
  all_goals intro x
  all_goals obtain ⟨p, u, q, rfl⟩ : ∃ (p : Fin 512) (u : Fin 1) (q : Fin 128), x = ix3 p u q := ⟨x 0, x 1, x 2, eq_ix3 x⟩
  · exact (channel_23 x0 x1 x4 p u q).trans
      ((congrArg (planes (R := 512) x0 x1 x2 x3 x4) (Cert.Lib.emb_plane (A := 512) (J := 24) (n := 128) 23 inb_S512x24x128_S512x1x128_0_23_0 p u q)).trans
        (planes_lookup (R := 512) x0 x1 x2 x3 x4 23 _ (by decide) p q)).symm
  · exact (channel_22 x0 x1 x4 p u q).trans
      ((congrArg (planes (R := 512) x0 x1 x2 x3 x4) (Cert.Lib.emb_plane (A := 512) (J := 24) (n := 128) 22 inb_S512x24x128_S512x1x128_0_22_0 p u q)).trans
        (planes_lookup (R := 512) x0 x1 x2 x3 x4 22 _ (by decide) p q)).symm
  · exact (channel_21 x0 x1 x4 p u q).trans
      ((congrArg (planes (R := 512) x0 x1 x2 x3 x4) (Cert.Lib.emb_plane (A := 512) (J := 24) (n := 128) 21 inb_S512x24x128_S512x1x128_0_21_0 p u q)).trans
        (planes_lookup (R := 512) x0 x1 x2 x3 x4 21 _ (by decide) p q)).symm
  · exact (channel_20 x0 x1 x4 p u q).trans
      ((congrArg (planes (R := 512) x0 x1 x2 x3 x4) (Cert.Lib.emb_plane (A := 512) (J := 24) (n := 128) 20 inb_S512x24x128_S512x1x128_0_20_0 p u q)).trans
        (planes_lookup (R := 512) x0 x1 x2 x3 x4 20 _ (by decide) p q)).symm
  · exact (channel_19 x0 x1 x4 p u q).trans
      ((congrArg (planes (R := 512) x0 x1 x2 x3 x4) (Cert.Lib.emb_plane (A := 512) (J := 24) (n := 128) 19 inb_S512x24x128_S512x1x128_0_19_0 p u q)).trans
        (planes_lookup (R := 512) x0 x1 x2 x3 x4 19 _ (by decide) p q)).symm
  · exact (channel_18 x0 x1 x4 p u q).trans
      ((congrArg (planes (R := 512) x0 x1 x2 x3 x4) (Cert.Lib.emb_plane (A := 512) (J := 24) (n := 128) 18 inb_S512x24x128_S512x1x128_0_18_0 p u q)).trans
        (planes_lookup (R := 512) x0 x1 x2 x3 x4 18 _ (by decide) p q)).symm
  · exact (channel_17 x0 x1 x4 p u q).trans
      ((congrArg (planes (R := 512) x0 x1 x2 x3 x4) (Cert.Lib.emb_plane (A := 512) (J := 24) (n := 128) 17 inb_S512x24x128_S512x1x128_0_17_0 p u q)).trans
        (planes_lookup (R := 512) x0 x1 x2 x3 x4 17 _ (by decide) p q)).symm
  · exact (channel_16 x0 x1 x4 p u q).trans
      ((congrArg (planes (R := 512) x0 x1 x2 x3 x4) (Cert.Lib.emb_plane (A := 512) (J := 24) (n := 128) 16 inb_S512x24x128_S512x1x128_0_16_0 p u q)).trans
        (planes_lookup (R := 512) x0 x1 x2 x3 x4 16 _ (by decide) p q)).symm
  · exact (channel_15 x0 x1 x2 x3 p u q).trans
      ((congrArg (planes (R := 512) x0 x1 x2 x3 x4) (Cert.Lib.emb_plane (A := 512) (J := 24) (n := 128) 15 inb_S512x24x128_S512x1x128_0_15_0 p u q)).trans
        (planes_dense (R := 512) x0 x1 x2 x3 x4 15 _ (by decide) p q)).symm
  · exact (channel_14 x0 x1 x2 x3 p u q).trans
      ((congrArg (planes (R := 512) x0 x1 x2 x3 x4) (Cert.Lib.emb_plane (A := 512) (J := 24) (n := 128) 14 inb_S512x24x128_S512x1x128_0_14_0 p u q)).trans
        (planes_dense (R := 512) x0 x1 x2 x3 x4 14 _ (by decide) p q)).symm
  · exact (channel_13 x0 x1 x2 x3 p u q).trans
      ((congrArg (planes (R := 512) x0 x1 x2 x3 x4) (Cert.Lib.emb_plane (A := 512) (J := 24) (n := 128) 13 inb_S512x24x128_S512x1x128_0_13_0 p u q)).trans
        (planes_dense (R := 512) x0 x1 x2 x3 x4 13 _ (by decide) p q)).symm
  · exact (channel_12 x0 x1 x2 x3 p u q).trans
      ((congrArg (planes (R := 512) x0 x1 x2 x3 x4) (Cert.Lib.emb_plane (A := 512) (J := 24) (n := 128) 12 inb_S512x24x128_S512x1x128_0_12_0 p u q)).trans
        (planes_dense (R := 512) x0 x1 x2 x3 x4 12 _ (by decide) p q)).symm
  · exact (channel_11 x0 x1 x2 x3 p u q).trans
      ((congrArg (planes (R := 512) x0 x1 x2 x3 x4) (Cert.Lib.emb_plane (A := 512) (J := 24) (n := 128) 11 inb_S512x24x128_S512x1x128_0_11_0 p u q)).trans
        (planes_dense (R := 512) x0 x1 x2 x3 x4 11 _ (by decide) p q)).symm
  · exact (channel_10 x0 x1 x2 x3 p u q).trans
      ((congrArg (planes (R := 512) x0 x1 x2 x3 x4) (Cert.Lib.emb_plane (A := 512) (J := 24) (n := 128) 10 inb_S512x24x128_S512x1x128_0_10_0 p u q)).trans
        (planes_dense (R := 512) x0 x1 x2 x3 x4 10 _ (by decide) p q)).symm
  · exact (channel_9 x0 x1 x2 x3 p u q).trans
      ((congrArg (planes (R := 512) x0 x1 x2 x3 x4) (Cert.Lib.emb_plane (A := 512) (J := 24) (n := 128) 9 inb_S512x24x128_S512x1x128_0_9_0 p u q)).trans
        (planes_dense (R := 512) x0 x1 x2 x3 x4 9 _ (by decide) p q)).symm
  · exact (channel_8 x0 x1 x2 x3 p u q).trans
      ((congrArg (planes (R := 512) x0 x1 x2 x3 x4) (Cert.Lib.emb_plane (A := 512) (J := 24) (n := 128) 8 inb_S512x24x128_S512x1x128_0_8_0 p u q)).trans
        (planes_dense (R := 512) x0 x1 x2 x3 x4 8 _ (by decide) p q)).symm
  · exact (channel_7 x0 x1 x2 x3 p u q).trans
      ((congrArg (planes (R := 512) x0 x1 x2 x3 x4) (Cert.Lib.emb_plane (A := 512) (J := 24) (n := 128) 7 inb_S512x24x128_S512x1x128_0_7_0 p u q)).trans
        (planes_dense (R := 512) x0 x1 x2 x3 x4 7 _ (by decide) p q)).symm
  · exact (channel_6 x0 x1 x2 x3 p u q).trans
      ((congrArg (planes (R := 512) x0 x1 x2 x3 x4) (Cert.Lib.emb_plane (A := 512) (J := 24) (n := 128) 6 inb_S512x24x128_S512x1x128_0_6_0 p u q)).trans
        (planes_dense (R := 512) x0 x1 x2 x3 x4 6 _ (by decide) p q)).symm
  · exact (channel_5 x0 x1 x2 x3 p u q).trans
      ((congrArg (planes (R := 512) x0 x1 x2 x3 x4) (Cert.Lib.emb_plane (A := 512) (J := 24) (n := 128) 5 inb_S512x24x128_S512x1x128_0_5_0 p u q)).trans
        (planes_dense (R := 512) x0 x1 x2 x3 x4 5 _ (by decide) p q)).symm
  · exact (channel_4 x0 x1 x2 x3 p u q).trans
      ((congrArg (planes (R := 512) x0 x1 x2 x3 x4) (Cert.Lib.emb_plane (A := 512) (J := 24) (n := 128) 4 inb_S512x24x128_S512x1x128_0_4_0 p u q)).trans
        (planes_dense (R := 512) x0 x1 x2 x3 x4 4 _ (by decide) p q)).symm
  · exact (channel_3 x0 x1 x2 x3 p u q).trans
      ((congrArg (planes (R := 512) x0 x1 x2 x3 x4) (Cert.Lib.emb_plane (A := 512) (J := 24) (n := 128) 3 inb_S512x24x128_S512x1x128_0_3_0 p u q)).trans
        (planes_dense (R := 512) x0 x1 x2 x3 x4 3 _ (by decide) p q)).symm
  · exact (channel_2 x0 x1 x2 x3 p u q).trans
      ((congrArg (planes (R := 512) x0 x1 x2 x3 x4) (Cert.Lib.emb_plane (A := 512) (J := 24) (n := 128) 2 inb_S512x24x128_S512x1x128_0_2_0 p u q)).trans
        (planes_dense (R := 512) x0 x1 x2 x3 x4 2 _ (by decide) p q)).symm
  · exact (channel_1 x0 x1 x2 x3 p u q).trans
      ((congrArg (planes (R := 512) x0 x1 x2 x3 x4) (Cert.Lib.emb_plane (A := 512) (J := 24) (n := 128) 1 inb_S512x24x128_S512x1x128_0_1_0 p u q)).trans
        (planes_dense (R := 512) x0 x1 x2 x3 x4 1 _ (by decide) p q)).symm
  · exact (channel_0 x0 x1 x2 x3 p u q).trans
      ((congrArg (planes (R := 512) x0 x1 x2 x3 x4) (Cert.Lib.emb_plane (A := 512) (J := 24) (n := 128) 0 inb_S512x24x128_S512x1x128_0_0_0 p u q)).trans
        (planes_dense (R := 512) x0 x1 x2 x3 x4 0 _ (by decide) p q)).symm

end Cert.Elements

end
-- ==== Proof.PlanesRows.lean ====
/-
  A row of `planes` depends only on that row of the inputs.

  Entry (p, c, q) of `planes` reads the seven features of element (p, q), its mask entry, and the parameters. So two
  pairs of input arrays, possibly of different numbers of rows, give the same entry at two indices with the same
  channel whenever the seven features and the mask agree there: a 512-row block of the kernel's arrays against the
  rows of the whole arrays it was cut from.
-/
import proofs.«166924_j70798240907696_2_alg».proof.Proof.Planes

noncomputable section

namespace Cert.Elements

open Idealize.ShloMosaic Idealize.ShloMosaic.ValueIdx

theorem planes_congr {R R' : ℕ}
    (x0 : (⟨3, ![R, 7, 128]⟩ : Shape).Idx → EReal) (x1 : (⟨2, ![R, 128]⟩ : Shape).Idx → EReal)
    (X0 : (⟨3, ![R', 7, 128]⟩ : Shape).Idx → EReal) (X1 : (⟨2, ![R', 128]⟩ : Shape).Idx → EReal)
    (x2 : (⟨2, ![16, 5]⟩ : Shape).Idx → EReal) (x3 : (⟨1, ![16]⟩ : Shape).Idx → EReal)
    (x4 : (⟨2, ![25, 8]⟩ : Shape).Idx → EReal)
    (y : (⟨3, ![R, 24, 128]⟩ : Shape).Idx) (y' : (⟨3, ![R', 24, 128]⟩ : Shape).Idx)
    (h1 : (y 1).val = (y' 1).val)
    (hx0 : ∀ j : Fin 7, x0 (ix3 (y 0) j (y 2)) = X0 (ix3 (y' 0) j (y' 2)))
    (hx1 : x1 (ix2 (y 0) (y 2)) = X1 (ix2 (y' 0) (y' 2))) :
    planes x0 x1 x2 x3 x4 y = planes X0 X1 x2 x3 x4 y' := by
  unfold planes
  by_cases h : (y 1).val < 16
  · have h' : (y' 1).val < 16 := by omega
    have e : (⟨(y 1).val, h⟩ : Fin 16) = ⟨(y' 1).val, h'⟩ := Fin.ext h1
    rw [dif_pos h, dif_pos h', e]
    unfold denseAt feat
    simp only [hx0, hx1]
  · have h' : ¬ (y' 1).val < 16 := by omega
    have h24 : (y 1).val < 24 := (y 1).isLt
    have h24' : (y' 1).val < 24 := (y' 1).isLt
    have e : (⟨(y 1).val - 16, by omega⟩ : Fin 8) = ⟨(y' 1).val - 16, by omega⟩ := Fin.ext (by show (y 1).val - 16 = (y' 1).val - 16; omega)
    rw [dif_neg h, dif_neg h', e]
    unfold lookupAt feat
    simp only [hx0, hx1]

end Cert.Elements

end
-- ==== Proof.PlanesArray.lean ====
/-
  The kernel's output array after the region: `planes` of the arrays the region finds.

  The grid has 32 points; point t stages rows 512·t … 512·t + 511 of the feature-major input [16384, 7, 128] and of the
  mask [16384, 128], the three small parameter arrays whole, and writes back rows 512·t … 512·t + 511 of the output
  [16384, 24, 128]. The body leaves `planes` of its input blocks in the output block (PlanesBlock.lean), and a row of
  `planes` depends only on that row of the inputs (PlanesRows.lean), so what point t writes back is block t of
  `planes` of the whole arrays. Row r of the output lies in the block of point r / 512, so the 32 blocks cover the
  array and it ends holding `planes` of the whole arrays.
-/
import proofs.«166924_j70798240907696_2_alg».proof.Proof.PlanesBlock
import proofs.«166924_j70798240907696_2_alg».proof.Proof.PlanesRows
import Idealize.ShloMosaic.Lib.Pipeline.Value

set_option maxRecDepth 16384

noncomputable section

namespace Cert.KernelIdeal.Planes

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Elements

variable (m : (ℓ : Loc nD τ sig) → Buf (Elt Ideal) ℓ)

/-- The printed index maps over the grid: the three row-blocked windows sit at block t on the row axis and block 0
    elsewhere, the three parameter windows at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The weight window's block is the whole weight array. -/
theorem iblk_weights (c : Dev nD) (t : Fin cfg0.N) : iblk m c 2 t = V m c main_arg2 := by
  obtain ⟨-, -, -, -, -, e0, e1, -⟩ := idx_facts t
  funext j
  show V m c main_arg2 (((cfg0.win 2).blk t).view.emb j) = V m c main_arg2 j
  refine congrArg _ (funext fun a => Fin.ext ?_)
  match a with
  | ⟨0, _⟩ => show win0_2.index t (0 : Fin 2) * 16 + 1 * (j 0).val = (j 0).val; omega
  | ⟨1, _⟩ => show win0_2.index t (1 : Fin 2) * 5 + 1 * (j 1).val = (j 1).val; omega

/-- The bias window's block is the whole bias vector. -/
theorem iblk_bias (c : Dev nD) (t : Fin cfg0.N) : iblk m c 3 t = V m c main_arg3 := by
  obtain ⟨-, -, -, -, -, -, -, e0, -⟩ := idx_facts t
  funext j
  show V m c main_arg3 (((cfg0.win 3).blk t).view.emb j) = V m c main_arg3 j
  refine congrArg _ (funext fun a => Fin.ext ?_)
  match a with
  | ⟨0, _⟩ => show win0_3.index t (0 : Fin 1) * 16 + 1 * (j 0).val = (j 0).val; omega

/-- The table window's block is the whole table. -/
theorem iblk_table (c : Dev nD) (t : Fin cfg0.N) : iblk m c 4 t = V m c main_arg4 := by
  obtain ⟨-, -, -, -, -, -, -, -, e0, e1, -⟩ := idx_facts t
  funext j
  show V m c main_arg4 (((cfg0.win 4).blk t).view.emb j) = V m c main_arg4 j
  refine congrArg _ (funext fun a => Fin.ext ?_)
  match a with
  | ⟨0, _⟩ => show win0_4.index t (0 : Fin 2) * 25 + 1 * (j 0).val = (j 0).val; omega
  | ⟨1, _⟩ => show win0_4.index t (1 : Fin 2) * 8 + 1 * (j 1).val = (j 1).val; omega

/-- `planes` of the arrays as the region finds them: feature-major input, mask, weights, bias, table. -/
abbrev whole (c : Dev nD) : S16384x24x128.Idx → EReal :=
  planes (R := 16384) (V m c main_v0) (V m c main_arg1) (V m c main_arg2) (V m c main_arg3) (V m c main_arg4)

/-- What point t writes back is block t of `whole`. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5, out_eq_planes, iblk_weights, iblk_bias, iblk_table]
  obtain ⟨e00, e01, e02, e10, e11, -, -, -, -, -, e50, e51, e52⟩ := idx_facts t
  funext y
  show planes (R := 512) (iblk m c 0 t) (iblk m c 1 t) (V m c main_arg2) (V m c main_arg3) (V m c main_arg4) y
    = planes (R := 16384) (V m c main_v0) (V m c main_arg1) (V m c main_arg2) (V m c main_arg3) (V m c main_arg4)
        (((cfg0.win 5).blk t).view.emb y)
  refine planes_congr _ _ _ _ _ _ _ y _ ?_ ?_ ?_
  · show (y 1).val = win0_5.index t (1 : Fin 3) * 24 + 1 * (y 1).val
    omega
  · intro j
    show V m c main_v0 (((cfg0.win 0).blk t).view.emb (ix3 (y 0) j (y 2))) = V m c main_v0 _
    refine congrArg _ (funext fun a => Fin.ext ?_)
    match a with
    | ⟨0, _⟩ => show win0_0.index t (0 : Fin 3) * 512 + 1 * (y 0).val = win0_5.index t (0 : Fin 3) * 512 + 1 * (y 0).val; omega
    | ⟨1, _⟩ => show win0_0.index t (1 : Fin 3) * 7 + 1 * j.val = j.val; omega
    | ⟨2, _⟩ => show win0_0.index t (2 : Fin 3) * 128 + 1 * (y 2).val = win0_5.index t (2 : Fin 3) * 128 + 1 * (y 2).val; omega
  · show V m c main_arg1 (((cfg0.win 1).blk t).view.emb (ix2 (y 0) (y 2))) = V m c main_arg1 _
    refine congrArg _ (funext fun a => Fin.ext ?_)
    match a with
    | ⟨0, _⟩ => show win0_1.index t (0 : Fin 2) * 512 + 1 * (y 0).val = win0_5.index t (0 : Fin 3) * 512 + 1 * (y 0).val; omega
    | ⟨1, _⟩ => show win0_1.index t (1 : Fin 2) * 128 + 1 * (y 2).val = win0_5.index t (2 : Fin 3) * 128 + 1 * (y 2).val; omega

/-- An index of the output array is in point t's block iff each coordinate is in the block's range. -/
theorem mem_blk (t : Fin cfg0.N) (i : S16384x24x128.Idx) :
    i ∈ ((cfg0.win 5).blk t).view.set ↔ ∀ a : Fin 3, win0_5.index t a * S512x24x128.size a ≤ (i a).val
      ∧ (i a).val < win0_5.index t a * S512x24x128.size a + S512x24x128.size a := by
  show i ∈ ((View.whole main_v1).slice (win0_5.rect t)).set ↔ _
  rw [View.set_slice_whole, Rect.mem_set_unit]
  exact Iff.rfl

/-- Every index of the output array is in the block of the point its row falls in. -/
theorem cover (i : S16384x24x128.Idx) :
    ∃ t : Fin cfg0.N, (cfg0.win 5).flush t = true ∧ i ∈ ((cfg0.win 5).blk t).view.set := by
  have h0 : (i 0).val < 16384 := (i 0).isLt
  have h1 : (i 1).val < 24 := (i 1).isLt
  have h2 : (i 2).val < 128 := (i 2).isLt
  have hN : cfg0.N = 32 := N_0
  have ht : (i 0).val / 512 < cfg0.N := by rw [hN]; omega
  obtain ⟨-, -, -, -, -, -, -, -, -, -, e50, e51, e52⟩ := idx_facts ⟨(i 0).val / 512, ht⟩
  have e50' : win0_5.index ⟨(i 0).val / 512, ht⟩ (0 : Fin 3) = (i 0).val / 512 := e50
  refine ⟨⟨(i 0).val / 512, ht⟩, flush0_5 _, ?_⟩
  rw [mem_blk]
  intro a
  match a with
  | ⟨0, _⟩ =>
    show win0_5.index ⟨(i 0).val / 512, ht⟩ (0 : Fin 3) * 512 ≤ (i 0).val
      ∧ (i 0).val < win0_5.index ⟨(i 0).val / 512, ht⟩ (0 : Fin 3) * 512 + 512
    omega
  | ⟨1, _⟩ =>
    show win0_5.index ⟨(i 0).val / 512, ht⟩ (1 : Fin 3) * 24 ≤ (i 1).val
      ∧ (i 1).val < win0_5.index ⟨(i 0).val / 512, ht⟩ (1 : Fin 3) * 24 + 24
    omega
  | ⟨2, _⟩ =>
    show win0_5.index ⟨(i 0).val / 512, ht⟩ (2 : Fin 3) * 128 ≤ (i 2).val
      ∧ (i 2).val < win0_5.index ⟨(i 0).val / 512, ht⟩ (2 : Fin 3) * 128 + 128
    omega

/-- The output array after the region. -/
theorem final (c : Dev nD) : (dats m 0 c).arrAt 5 cfg0.N = whole m c :=
  (dats m 0 c).arrAt_eq_of_cover 5 (whole m c) (fun t _ => flushed_eq m c t) (cover)

end Cert.KernelIdeal.Planes

end
-- ==== Proof.KernelRun.lean ====
/-
  The idealized kernel program's result: `features` of its arguments.

  @main transposes the element-major input [16384, 128, 7] to feature-major [16384, 7, 128] before the region, and the
  region's feature-major output [16384, 24, 128] back to element-major [16384, 128, 24] after it. The region leaves
  `planes` of the arrays it finds (PlanesArray.lean); `features` is by definition `planes` of the transposed input,
  read through the transposed index. So the program ends with its result at `features` of the argument arrays, and
  the arguments unchanged.
-/
import proofs.«166924_j70798240907696_2_alg».proof.Proof.PlanesArray
import Idealize.ShloMosaic.Lib.StableHlo.Run

set_option maxRecDepth 16384

noncomputable section

namespace Cert.KernelIdeal.Planes

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.Elements

variable (m : (ℓ : Loc nD τ sig) → Buf (Elt Ideal) ℓ) (ρ : Dev nD → PrngReg)

/-- The feature-major input the region finds is the argument with its last two axes exchanged. -/
theorem input_eq (c : Dev nD) :
    (V m c main_v0 : S16384x7x128.Idx → EReal)
      = fun y => (m ((c : Thread nD τ).loc main_arg0) : S16384x128x7.Idx → EReal) (ix3 (y 0) (y 2) (y 1)) := by
  have e : (V m c main_v0 : S16384x7x128.Idx → EReal)
      = transpose S16384x7x128 [0, 2, 1] (m ((c : Thread nD τ).loc main_arg0)) transposes_S16384x128x7_S16384x7x128_0_2_1 := by
    show StableHlo.after hostOps0 (fun b => m (c, b)) (Proc.devRef .tc main_v0) = _
    after_results
  rw [e]
  funext y
  exact transpose_apply [0, 2, 1] _ transposes_S16384x128x7_S16384x7x128_0_2_1 y (ix3 (y 0) (y 2) (y 1)) (fun b => by
    match b with
    | ⟨0, _⟩ => rfl
    | ⟨1, _⟩ => rfl
    | ⟨2, _⟩ => rfl)

/-- The result buffer after the host line that follows the region: the output array with its last two axes
    exchanged. -/
theorem tail_eq (c : Dev nD) :
    (Pipeline.afterTail₀ cfgs (dats m) 0 (V0 m) [hostOps1] c main_v2 : S16384x128x24.Idx → EReal)
      = transpose S16384x128x24 [0, 2, 1] (whole m c) transposes_S16384x24x128_S16384x128x24_0_2_1 := by
  unfold Pipeline.afterTail₀
  show StableHlo.after hostOps1 _ (Proc.devRef .tc main_v2) = _
  after_results
  exact congrArg (fun X => transpose S16384x128x24 [0, 2, 1] X transposes_S16384x24x128_S16384x128x24_0_2_1)
    ((Pipeline.withArrays_arr spec0 launch0.win.arr_inj c _ _ 5).trans (final m c))

/-- That array is `features` of the argument arrays. -/
theorem result_eq (c : Dev nD) :
    transpose S16384x128x24 [0, 2, 1] (whole m c) transposes_S16384x24x128_S16384x128x24_0_2_1
      = features (R := 16384) (m ((c : Thread nD τ).loc main_arg2)) (m ((c : Thread nD τ).loc main_arg3))
          (m ((c : Thread nD τ).loc main_arg4)) (m ((c : Thread nD τ).loc main_arg0)) (m ((c : Thread nD τ).loc main_arg1)) := by
  funext i
  rw [transpose_apply [0, 2, 1] (whole m c) transposes_S16384x24x128_S16384x128x24_0_2_1 i (ix3 (i 0) (i 2) (i 1)) (fun b => by
    match b with
    | ⟨0, _⟩ => rfl
    | ⟨1, _⟩ => rfl
    | ⟨2, _⟩ => rfl)]
  show planes (R := 16384) (V m c main_v0) (V m c main_arg1) (V m c main_arg2) (V m c main_arg3) (V m c main_arg4) _ = _
  rw [input_eq, V_main_arg1, V_main_arg2, V_main_arg3, V_main_arg4]
  rfl

/-- The run: the result at `features` of the arguments, the arguments unchanged. -/
theorem run : θ_run defs (onTc (τ := τ) (main (F := Ideal))) ⟨m, fun _ => 0, ρ⟩ (fun r => ∀ c : Dev nD,
      r.2.mem ((c.tc : Thread nD τ).loc main_v2)
        = features (R := 16384) (m ((c.tc : Thread nD τ).loc main_arg2)) (m ((c.tc : Thread nD τ).loc main_arg3))
            (m ((c.tc : Thread nD τ).loc main_arg4)) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v2 (Pipeline.mem_restRefs_of main_v2 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Planes

end
-- ==== Proof.CellLaws.lean ====
/-
  The laws that join the two spellings of a cell (Cell.lean), on the extended reals.

  A dense channel: the kernel adds the bias first and the five products after it, each written weight · feature; the
  reference contracts feature · weight over the five inputs and adds the bias last. Addition and multiplication on
  the extended reals are commutative and associative, so the two are equal for all values, infinite ones included.

  A table channel: the equality bit of the code against k is 1 when the code is k and 0 otherwise; 0 · x = 0 and
  0 + x = x hold for every extended real x, so the sum over the 25 rows of bit · row is the row whose number is the
  code. The code is z − 56 for an atomic number 57 ≤ z ≤ 80 and 0 otherwise, so it is always one of 0 … 24 and
  nonnegative as a signed word.
-/
import proofs.«166924_j70798240907696_2_alg».proof.Proof.Cell
import Idealize.ShloMosaic.Lib.Affine

noncomputable section

namespace Cert.Elements

open Idealize.ShloMosaic

theorem zero_eq : zero = 0 := by
  show Ideal.ofBits .f32 0x00000000#32 = 0
  exact Ideal.ofBits_zero_f32

/-- The dense channel with the contraction first and the bias last. -/
theorem dense_eq_sum (bias : EReal) (w f : Fin 5 → EReal) (m : EReal) :
    dense bias w f m = max ((∑ k : Fin 5, f k * w k) + bias) zero * m := by
  unfold dense
  rw [Fin.sum_univ_five, mul_comm (w 0), mul_comm (w 1), mul_comm (w 2), mul_comm (w 3), mul_comm (w 4)]
  congr 2
  ac_rfl

/-- The equality bit, as a number. -/
theorem bit_eq (z : BitVec 32) (k : ℕ) : bit z k = if z = BitVec.ofNat 32 k then 1 else 0 := by
  show ((((IntOp.cmpi .eq z (BitVec.ofNat 32 k)).setWidth 32).toInt : ℝ) : EReal) = _
  by_cases h : z = BitVec.ofNat 32 k
  · rw [if_pos h, IntOp.cmpi_eq.2 h]
    have e1 : ((1#1 : BitVec 1).setWidth 32).toInt = 1 := by decide
    rw [e1]; norm_num
  · rw [if_neg h]
    have h0 : IntOp.cmpi .eq z (BitVec.ofNat 32 k) = 0#1 :=
      ValueIdx.eq_zero_of_ne_one (fun h1 => h (IntOp.cmpi_eq.1 h1))
    rw [h0]
    have e0 : ((0#1 : BitVec 1).setWidth 32).toInt = 0 := by decide
    rw [e0]; norm_num

/-- A word is the number k < 25 exactly when its unsigned reading is k. -/
theorem eq_ofNat_iff (z : BitVec 32) (k : ℕ) (hk : k < 25) : z = BitVec.ofNat 32 k ↔ z.toNat = k := by
  constructor
  · rintro rfl
    rw [BitVec.toNat_ofNat]
    omega
  · intro h
    apply BitVec.eq_of_toNat_eq
    rw [BitVec.toNat_ofNat, h]
    omega

/-- The sum over the first n rows of bit · row: the row the word names if it is among them, else nothing. -/
theorem rowSum_eq (z : BitVec 32) (e : Fin 25 → EReal) : ∀ n : ℕ, n ≤ 25 →
    rowSum z e n = if z.toNat < n then e ⟨z.toNat % 25, Nat.mod_lt _ (by decide)⟩ else 0
  | 0, _ => by
    rw [if_neg (by omega)]
    exact zero_eq
  | n + 1, hn => by
    have ih := rowSum_eq z e n (by omega)
    show rowSum z e n + bit z n * e ⟨n % 25, Nat.mod_lt _ (by decide)⟩ = _
    rw [ih, bit_eq]
    have hk := eq_ofNat_iff z n (by omega)
    by_cases h1 : z.toNat < n
    · have hne : ¬ z = BitVec.ofNat 32 n := by rw [hk]; omega
      rw [if_pos h1, if_neg hne, if_pos (by omega), zero_mul, add_zero]
    · by_cases h2 : z.toNat = n
      · rw [if_neg h1, if_pos (hk.2 h2), if_pos (by omega), zero_add, one_mul]
        congr 2
        exact congrArg (· % 25) h2.symm
      · have hne : ¬ z = BitVec.ofNat 32 n := by rw [hk]; exact h2
        rw [if_neg h1, if_neg hne, if_neg (by omega), zero_mul, add_zero]

/-- The table channel is the one row the word names, times the mask. -/
theorem lookup_eq (z : BitVec 32) (e : Fin 25 → EReal) (m : EReal) (hz : z.toNat < 25) :
    lookup z e m = e ⟨z.toNat, hz⟩ * m := by
  unfold lookup
  rw [rowSum_eq z e 25 (le_refl _), if_pos hz]
  congr 2
  exact Fin.ext (Nat.mod_eq_of_lt hz)

/-- The code of any atomic number is one of 0 … 24, as an unsigned word. -/
theorem code_lt (z : BitVec 32) : (code z).toNat < 25 := by
  unfold code Scalar.select
  split
  · next h =>
    obtain ⟨h1, h2⟩ := IntOp.andi_eq_one.1 h
    have g1 := IntOp.cmpi_sge.1 h1
    have g2 := IntOp.cmpi_sle.1 h2
    have c57 : (57#32 : BitVec 32).toInt = 57 := by decide
    have c80 : (80#32 : BitVec 32).toInt = 80 := by decide
    rw [c57] at g1
    rw [c80] at g2
    have hz : z.toInt = (z.toNat : ℤ) := by
      rw [BitVec.toInt_eq_toNat_cond]
      split
      · rfl
      · rename_i hlt
        rw [BitVec.toInt_eq_toNat_cond, if_neg hlt] at g1
        have := z.isLt
        omega
    show (z - 57#32 + 1#32).toNat < 25
    rw [BitVec.toNat_add, BitVec.toNat_sub]
    have e57 : (57#32 : BitVec 32).toNat = 57 := by decide
    have e1 : (1#32 : BitVec 32).toNat = 1 := by decide
    rw [e57, e1]
    omega
  · show (0#32 : BitVec 32).toNat < 25
    decide

/-- The code is nonnegative as a signed word. -/
theorem code_toInt (z : BitVec 32) : (code z).toInt = ((code z).toNat : ℤ) := by
  have h := code_lt z
  rw [BitVec.toInt_eq_toNat_cond, if_pos (by omega)]

end Cert.Elements

end
-- ==== Proof.LibLastAxisJoin.lean ====
/-
  Stacks joined along their last axis, read at an index; and the bit of a comparison read as a number.

  A concatenation of [a, b, n₀], [a, b, n₁] (and [a, b, n₂]) stacks along the last axis is a [a, b, N] stack with
  N the sum of the extents. Read at (p, q, j) it is the piece whose span holds j, at (p, q, j less the extents before
  it): one dependent `if` per boundary, the coordinates written out, generic in every extent and in the element
  type. With it: a one-bit word widened to 32 bits and read as a signed integer is the bit read as a natural number
  (both are 0 or 1), which is what makes "compare, widen, convert signed" and "compare, convert unsigned" one value.
-/
import Idealize.ShloMosaic.Lib.Pipeline.Value
import Idealize.ShloMosaic.Lib.ValueIdx

namespace Cert.Lib

open Idealize.ShloMosaic Idealize.ShloMosaic.ValueIdx

variable {α : Type}

/-- Two stacks joined along the last axis, read at (p, q, j): the first at j when j < n₀, else the second at j - n₀. -/
theorem join2_last_apply {a b n0 n1 N : ℕ} (x0 : (⟨3, ![a, b, n0]⟩ : Shape).Idx → α)
    (x1 : (⟨3, ![a, b, n1]⟩ : Shape).Idx → α)
    (h : Shape.Concatenates [(⟨3, ![a, b, n0]⟩ : Shape), ⟨3, ![a, b, n1]⟩] ⟨3, ![a, b, N]⟩ 2)
    (hN : N = n0 + n1) (p : Fin a) (q : Fin b) (j : Fin N) :
    concatenate ⟨3, ![a, b, N]⟩ 2 [⟨⟨3, ![a, b, n0]⟩, x0⟩, ⟨⟨3, ![a, b, n1]⟩, x1⟩] h (ix3 p q j)
      = if h0 : j.val < n0 then x0 (ix3 p q ⟨j.val, h0⟩)
        else x1 (ix3 p q ⟨j.val - n0, by have := j.isLt; omega⟩) := by
  split
  · next h0 =>
    exact concatenate_pair_apply_left 2 x0 x1 h (ix3 p q j) rfl (ix3 p q ⟨j.val, h0⟩) (fun c => by
      match c with
      | ⟨0, _⟩ => rfl
      | ⟨1, _⟩ => rfl
      | ⟨2, _⟩ => rfl)
  · next h0 =>
    exact concatenate_pair_apply_right 2 x0 x1 h (ix3 p q j) rfl rfl (ix3 p q ⟨j.val - n0, by have := j.isLt; omega⟩)
      (fun c => by
        match c with
        | ⟨0, _⟩ => exact fun _ => rfl
        | ⟨1, _⟩ => exact fun _ => rfl
        | ⟨2, _⟩ => exact fun hc => absurd rfl hc)
      (by show j.val - n0 + n0 = j.val; omega)

/-- Three stacks joined along the last axis, read at (p, q, j): the piece whose span holds j. -/
theorem join3_last_apply {a b n0 n1 n2 N : ℕ} (x0 : (⟨3, ![a, b, n0]⟩ : Shape).Idx → α)
    (x1 : (⟨3, ![a, b, n1]⟩ : Shape).Idx → α) (x2 : (⟨3, ![a, b, n2]⟩ : Shape).Idx → α)
    (h : Shape.Concatenates [(⟨3, ![a, b, n0]⟩ : Shape), ⟨3, ![a, b, n1]⟩, ⟨3, ![a, b, n2]⟩] ⟨3, ![a, b, N]⟩ 2)
    (hN : N = n0 + n1 + n2) (p : Fin a) (q : Fin b) (j : Fin N) :
    concatenate ⟨3, ![a, b, N]⟩ 2 [⟨⟨3, ![a, b, n0]⟩, x0⟩, ⟨⟨3, ![a, b, n1]⟩, x1⟩, ⟨⟨3, ![a, b, n2]⟩, x2⟩] h (ix3 p q j)
      = if h0 : j.val < n0 then x0 (ix3 p q ⟨j.val, h0⟩)
        else if h1 : j.val < n0 + n1 then x1 (ix3 p q ⟨j.val - n0, by omega⟩)
        else x2 (ix3 p q ⟨j.val - n0 - n1, by have := j.isLt; omega⟩) := by
  split
  · next h0 =>
    exact concatenate_apply_piece 2 [⟨⟨3, ![a, b, n0]⟩, x0⟩, ⟨⟨3, ![a, b, n1]⟩, x1⟩, ⟨⟨3, ![a, b, n2]⟩, x2⟩] h (ix3 p q j) 0 (by simp) _ x0 rfl rfl 0 rfl (ix3 p q ⟨j.val, h0⟩)
      (fun c => by
        match c with
        | ⟨0, _⟩ => exact fun _ => rfl
        | ⟨1, _⟩ => exact fun _ => rfl
        | ⟨2, _⟩ => exact fun hc => absurd rfl hc)
      (by show 0 + j.val = j.val; omega)
  · next h0 =>
    split
    · next h1 =>
      exact concatenate_apply_piece 2 [⟨⟨3, ![a, b, n0]⟩, x0⟩, ⟨⟨3, ![a, b, n1]⟩, x1⟩, ⟨⟨3, ![a, b, n2]⟩, x2⟩] h (ix3 p q j) 1 (by simp) _ x1 rfl rfl n0 (by simp) (ix3 p q ⟨j.val - n0, by omega⟩)
        (fun c => by
          match c with
          | ⟨0, _⟩ => exact fun _ => rfl
          | ⟨1, _⟩ => exact fun _ => rfl
          | ⟨2, _⟩ => exact fun hc => absurd rfl hc)
        (by show n0 + (j.val - n0) = j.val; omega)
    · next h1 =>
      exact concatenate_apply_piece 2 [⟨⟨3, ![a, b, n0]⟩, x0⟩, ⟨⟨3, ![a, b, n1]⟩, x1⟩, ⟨⟨3, ![a, b, n2]⟩, x2⟩] h (ix3 p q j) 2 (by simp) _ x2 rfl rfl (n0 + n1) (by simp)
        (ix3 p q ⟨j.val - n0 - n1, by have := j.isLt; omega⟩)
        (fun c => by
          match c with
          | ⟨0, _⟩ => exact fun _ => rfl
          | ⟨1, _⟩ => exact fun _ => rfl
          | ⟨2, _⟩ => exact fun hc => absurd rfl hc)
        (by show n0 + n1 + (j.val - n0 - n1) = j.val; omega)

/-- A one-bit word widened to 32 bits and read signed is the bit read as a natural number. -/
theorem toInt_setWidth_bit (b : BitVec 1) : ((b.setWidth 32).toInt : ℝ) = ((b.toNat : ℕ) : ℝ) := by
  have h : ∀ b : BitVec 1, (b.setWidth 32).toInt = (b.toNat : ℤ) := by decide
  rw [h b]; simp

end Cert.Lib
-- ==== Proof.LibTableGather.lean ====
/-
  A host gather of whole rows' entries of a table through a rank-3 array of index words, read at an index.

  `table[idx]` for a table [N, C] and an integer array idx of shape [A, B] lowers to a gather with offset axis 2,
  collapsed operand axis 0, start index map [0], slice sizes [1, C] and the index vector on axis 2 of the indices taken
  as [A, B, 1]. Result entry (p, q, d) is the table at row idx[p, q, 0], read as a signed integer and clamped into
  0 … N − 1 as every start index of a gather is, and column d. Generic in N, C, A, B, the word width and the element
  type.
-/
import Idealize.ShloMosaic.PureOps
import Idealize.ShloMosaic.Lib.ValueIdx

noncomputable section

namespace Cert.Lib

open Idealize.ShloMosaic Idealize.ShloMosaic.ValueIdx

variable {α : Type}

/-- The dimension numbers of `table[idx]`, table [N, C], indices [A, B, 1], result [A, B, C]. -/
abbrev tableDims (N C A B : ℕ)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Of the two operand axes, the one that is not collapsed is axis 1. -/
theorem kept_axis_one :
    (List.finRange 2).filter (fun a : Fin 2 => decide (a ∉ ([0] ++ [] : List (Fin 2)))) = [(1 : Fin 2)] := by decide

/-- The gather read at (p, q, d): row idx[p, q, 0] (signed, clamped into 0 … N − 1), column d. -/
theorem gather_table_apply {N C A B w : ℕ} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (p : Fin A) (q : Fin B) (d : Fin C) :
    Host.gather (tableDims N C A B wf) x idx (ix3 p q d)
      = x (ix2 ⟨min (idx (ix3 p q (0 : Fin 1))).toInt.toNat (N - 1), by omega⟩ d) := by
  unfold Host.gather
  congr 1
  funext a
  refine Fin.ext ?_
  match a with
  | ⟨0, _⟩ =>
    show (tableDims N C A B wf).start (ix3 p q d) idx 0 + (tableDims N C A B wf).batchCoord (ix3 p q d) 0
      + (tableDims N C A B wf).offCoord (ix3 p q d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (tableDims N C A B wf).startIndexMap from List.mem_singleton.mpr rfl)]
    have hsi : (tableDims N C A B wf).siIdx (ix3 p q d) ⟨List.idxOf (0 : Fin 2) (tableDims N C A B wf).startIndexMap,
        List.idxOf_lt_length_iff.2 (List.mem_singleton.mpr rfl)⟩ = ix3 p q (0 : Fin 1) := by
      funext b; refine Fin.ext ?_
      match b with
      | ⟨0, _⟩ => rfl
      | ⟨1, _⟩ => rfl
      | ⟨2, _⟩ => rfl
    rw [hsi]
    rfl
  | ⟨1, _⟩ =>
    show (tableDims N C A B wf).start (ix3 p q d) idx 1 + (tableDims N C A B wf).batchCoord (ix3 p q d) 1
      + (tableDims N C A B wf).offCoord (ix3 p q d) 1 = d.val
    rw [GatherDims.batchCoord_eq_zero _ _ _ List.not_mem_nil]
    unfold GatherDims.start
    rw [dif_neg (show ¬ (1 : Fin 2) ∈ (tableDims N C A B wf).startIndexMap from by
      show ¬ (1 : Fin 2) ∈ ([0] : List (Fin 2)); decide)]
    have hk : (tableDims N C A B wf).sKept = [(1 : Fin 2)] := by
      show (List.finRange 2).filter (fun a : Fin 2 => decide (a ∉ ([0] ++ [] : List (Fin 2)))) = [1]
      exact kept_axis_one
    have key : ∀ (L : List (Fin 2)) (_ : L = [(1 : Fin 2)]) (h : List.idxOf (1 : Fin 2) L < ([2] : List (Fin 3)).length),
        ((ix3 p q d) (([2] : List (Fin 3))[List.idxOf (1 : Fin 2) L]'h)).val = d.val := by
      intro L hL h
      subst hL
      rfl
    unfold GatherDims.offCoord
    rw [dif_pos (show (1 : Fin 2) ∈ (tableDims N C A B wf).sKept from (GatherDims.mem_sKept _ _).mpr
      ⟨by show ¬ (1 : Fin 2) ∈ ([0] : List (Fin 2)); decide, List.not_mem_nil⟩)]
    exact (Nat.zero_add _).trans (key _ hk _)

end Cert.Lib

end
-- ==== Proof.RefFeatures.lean ====
/-
  The idealized reference's result: `features` of its arguments.

  Entry (b, n, c) of the reference's result is the concatenation of its dense output [.., 16] and its gathered table
  rows [.., 8] at channel c, times the mask entry (b, n). The dense output is the contraction over the five inputs of
  masked feature · weight plus the bias, rectified: the kernel's dense channel with its sum reordered
  (`dense_eq_sum`). The gathered entry is the table at the row the index word names, where the word is the code of the
  masked atomic number: the code is one of 0 … 24, so adding 25 to negative words changes nothing and the gather's clamp
  into 0 … 24 is the identity; the kernel's 25-term sum is that one row (`lookup_eq`).
-/
import proofs.«166924_j70798240907696_2_alg».proof.Proof.Gen.ReferenceIdeal.Read
import proofs.«166924_j70798240907696_2_alg».proof.Proof.Planes
import proofs.«166924_j70798240907696_2_alg».proof.Proof.CellLaws
import proofs.«166924_j70798240907696_2_alg».proof.Proof.LibLastAxisJoin
import proofs.«166924_j70798240907696_2_alg».proof.Proof.LibTableGather

set_option maxRecDepth 16384

noncomputable section

namespace Cert.ReferenceIdeal.Features

open Idealize.ShloMosaic Idealize.ShloMosaic.ValueIdx
open Cert.ReferenceIdeal Cert.ReferenceIdeal.Gen Cert.ReferenceIdeal.Read Cert.Elements

variable (a0 : S16384x128x7.Idx → EReal) (a1 : S16384x128.Idx → EReal) (a2 : S16x5.Idx → EReal)
  (a3 : S16.Idx → EReal) (a4 : S25x8.Idx → EReal)

/-- The broadcast mask at (b, n, c) is the mask entry (b, n). -/
theorem mask_at (b : Fin 16384) (n : Fin 128) (c : Fin 24) :
    val_main_v30 (F := Ideal) a1 (ix3 b n c) = a1 (ix2 b n) := by
  rw [val_main_v30_apply, val_main_v0_apply]
  exact congrArg a1 (funext fun a => Fin.ext (by
    match a with
    | ⟨0, _⟩ => rfl
    | ⟨1, _⟩ => rfl))

/-- Masked feature j of element (b, n). -/
theorem masked_at (b : Fin 16384) (n : Fin 128) (j : Fin 7) :
    val_main_v2 (F := Ideal) a0 a1 (ix3 b n j) = a0 (ix3 b n j) * a1 (ix2 b n) := by
  rw [val_main_v2_apply, val_main_v1_apply, val_main_v0_apply]
  show a0 (ix3 b n j) * a1 _ = _
  congr 1
  exact congrArg a1 (funext fun a => Fin.ext (by
    match a with
    | ⟨0, _⟩ => rfl
    | ⟨1, _⟩ => rfl))

/-- The reference's dense output at (b, n, o): the contraction, the bias, the rectifier. -/
theorem dense_at (b : Fin 16384) (n : Fin 128) (o : Fin 16) :
    val_main_v11 (F := Ideal) a0 a1 a2 a3 (ix3 b n o)
      = max ((∑ k : Fin 5, (a0 (ix3 b n ⟨k.val, by omega⟩) * a1 (ix2 b n)) * a2 (ix2 o k)) + a3 (ix1 o)) zero := by
  rw [val_main_v11_apply, val_main_v10_apply, val_main_v7_apply, val_main_v9_apply, val_main_v8_apply,
    val_main_call0_v0_apply, val_main_call0_cst_apply]
  have hs : ∀ k : Fin 5, val_main_v3 (F := Ideal) a0 a1 (lidx_main_v7 (ix3 b n o) k) * a2 (ridx_main_v7 (ix3 b n o) k)
      = (a0 (ix3 b n ⟨k.val, by omega⟩) * a1 (ix2 b n)) * a2 (ix2 o k) := fun k => by
    rw [val_main_v3_apply]
    have e1 : idx_main_v3 (lidx_main_v7 (ix3 b n o) k) = ix3 b n (⟨k.val, by omega⟩ : Fin 7) :=
      funext fun a => Fin.ext (by
        match a with
        | ⟨0, _⟩ => rfl
        | ⟨1, _⟩ => rfl
        | ⟨2, _⟩ => rfl)
    have e2 : ridx_main_v7 (ix3 b n o) k = ix2 o k :=
      funext fun a => Fin.ext (by
        match a with
        | ⟨0, _⟩ => rfl
        | ⟨1, _⟩ => rfl)
    rw [e1, e2, masked_at]
  rw [Finset.sum_congr rfl (fun k _ => hs k)]
  have h9 : idx_main_v8 (idx_main_v9 (ix3 b n o)) = ix1 o :=
    funext fun a => Fin.ext (by
      match a with
      | ⟨0, _⟩ => rfl)
  rw [h9]
  rfl

/-- The masked atomic number of element (b, n), truncated. -/
theorem atomic_at (b : Fin 16384) (n : Fin 128) :
    val_main_v6 (F := Ideal) a0 a1 (ix2 b n) = atomic (a0 (ix3 b n (5 : Fin 7)) * a1 (ix2 b n)) := by
  rw [val_main_v6_apply, val_main_v5_apply, val_main_v4_apply]
  have e : idx_main_v4 (idx_main_v5 (ix2 b n)) = ix3 b n (5 : Fin 7) :=
    funext fun a => Fin.ext (by
      have hb := b.isLt
      have hn := n.isLt
      match a with
      | ⟨0, _⟩ => show (b.val * 128 + n.val) / 128 = b.val; omega
      | ⟨1, _⟩ => show (b.val * 128 + n.val) / 1 % 128 = n.val; omega
      | ⟨2, _⟩ => rfl)
  rw [e, masked_at]
  rfl

/-- The word the reference selects for element (b, n) is the code of its atomic number. -/
theorem code_at (b : Fin 16384) (n : Fin 128) :
    val_main_v21 (F := Ideal) a0 a1 (ix2 b n) = code (atomic (a0 (ix3 b n (5 : Fin 7)) * a1 (ix2 b n))) := by
  rw [val_main_v21_apply, val_main_v16_apply, val_main_v13_apply, val_main_v15_apply, val_main_v20_apply,
    val_main_v18_apply, val_main_v12_apply, val_main_v14_apply, val_main_v17_apply, val_main_v19_apply,
    val_main_call1_v1_apply, atomic_at]
  rfl

/-- Adding 25 to negative index words changes nothing: the code is never negative. -/
theorem index_at (b : Fin 16384) (n : Fin 128) :
    val_main_v26 (F := Ideal) a0 a1 (ix2 b n) = code (atomic (a0 (ix3 b n (5 : Fin 7)) * a1 (ix2 b n))) := by
  rw [val_main_v26_apply, val_main_v23_apply, code_at]
  have h0 : val_main_v22 (F := Ideal) (ix2 b n) = 0#32 := by rw [val_main_v22_apply]; rfl
  rw [h0]
  have hne : ¬ IntOp.cmpi .slt (code (atomic (a0 (ix3 b n (5 : Fin 7)) * a1 (ix2 b n)))) 0#32 = 1#1 := fun h => by
    have hlt := IntOp.cmpi_slt.1 h
    rw [code_toInt] at hlt
    have hz : (0#32 : BitVec 32).toInt = 0 := by decide
    omega
  rw [eq_zero_of_ne_one hne]
  exact select_zero _ _

/-- The gathered table entry at (b, n, d): row code, column d. -/
theorem table_at (b : Fin 16384) (n : Fin 128) (d : Fin 8) :
    val_main_v28 (F := Ideal) a0 a1 a4 (ix3 b n d)
      = a4 (ix2 ⟨(code (atomic (a0 (ix3 b n (5 : Fin 7)) * a1 (ix2 b n)))).toNat, code_lt _⟩ d) := by
  unfold val_main_v28
  have hD : gather_S25x8_S16384x128x1_S16384x128x8_2_0_n_n_0_2_18
      = Cert.Lib.tableDims 25 8 16384 128 gather_S25x8_S16384x128x1_S16384x128x8_2_0_n_n_0_2_18_wf := rfl
  rw [hD]
  rw [Cert.Lib.gather_table_apply (N := 25) (C := 8) (A := 16384) (B := 128) (Nat.zero_lt_succ 24)
    gather_S25x8_S16384x128x1_S16384x128x8_2_0_n_n_0_2_18_wf a4 (val_main_v27 (F := Ideal) a0 a1) b n d]
  have hw : val_main_v27 (F := Ideal) a0 a1 (ix3 b n (0 : Fin 1))
      = code (atomic (a0 (ix3 b n (5 : Fin 7)) * a1 (ix2 b n))) := by
    rw [val_main_v27_apply]
    have e : idx_main_v27 (ix3 b n (0 : Fin 1)) = ix2 b n :=
      funext fun a => Fin.ext (by
        match a with
        | ⟨0, _⟩ => rfl
        | ⟨1, _⟩ => rfl)
    rw [e, index_at]
  refine congrArg a4 (congrArg (fun r => ix2 r d) (Fin.ext ?_))
  show min (val_main_v27 (F := Ideal) a0 a1 (ix3 b n (0 : Fin 1))).toInt.toNat (25 - 1)
    = (code (atomic (a0 (ix3 b n (5 : Fin 7)) * a1 (ix2 b n)))).toNat
  have hlt := code_lt (atomic (a0 (ix3 b n (5 : Fin 7)) * a1 (ix2 b n)))
  rw [hw, code_toInt, Int.toNat_natCast]
  omega

/-- The reference's result is `features` of its arguments. -/
theorem result_eq : val_main_v31 (F := Ideal) a0 a1 a2 a3 a4 = features (R := 16384) a2 a3 a4 a0 a1 := by
  funext i
  obtain ⟨b, n, c, rfl⟩ : ∃ (b : Fin 16384) (n : Fin 128) (c : Fin 24), i = ix3 b n c := ⟨i 0, i 1, i 2, eq_ix3 i⟩
  rw [val_main_v31_apply, mask_at]
  unfold val_main_v29
  rw [Cert.Lib.join2_last_apply (a := 16384) (b := 128) (n0 := 16) (n1 := 8) (N := 24) (val_main_v11 (F := Ideal) a0 a1 a2 a3)
    (val_main_v28 (F := Ideal) a0 a1 a4) concatenates_S16384x128x16_S16384x128x8_S16384x128x24_d2 rfl b n c]
  by_cases hc : c.val < 16
  · rw [dif_pos hc, dense_at]
    refine Eq.trans ?_ (planes_dense (R := 16384) (fun (y : (⟨3, ![16384, 7, 128]⟩ : Shape).Idx) => a0 (ix3 (y 0) (y 2) (y 1)))
      a1 a2 a3 a4 c.val c.isLt hc b n).symm
    unfold denseAt
    rw [dense_eq_sum]
    rfl
  · rw [dif_neg hc, table_at]
    refine Eq.trans ?_ (planes_lookup (R := 16384) (fun (y : (⟨3, ![16384, 7, 128]⟩ : Shape).Idx) => a0 (ix3 (y 0) (y 2) (y 1)))
      a1 a2 a3 a4 c.val c.isLt (by omega) b n).symm
    unfold lookupAt
    rw [lookup_eq _ _ _ (code_lt _)]
    rfl

end Cert.ReferenceIdeal.Features

end
-- ==== Proof.lean ====
/-
  The elements feature map: a Pallas kernel against its jnp reference, on the extended reals.

  Inputs: per element (b, n) seven numbers info[b, n, ·] and a mask entry; a 16 × 5 weight matrix, a 16-vector of
  biases and a 25 × 8 table. With f_j = info[b, n, j] · mask[b, n], both programs return, for every element, 24 numbers:
    channels 0 … 15: max(bias_o + Σ_j w_{o,j} · f_j, 0) · mask, j over the first five features;
    channels 16 … 23: table[code, d] · mask, where code is the atomic number f_5 truncated to a 32-bit integer z and
    mapped to z − 56 when 57 ≤ z ≤ 80 and to 0 otherwise.
  The kernel works feature-major on 32 blocks of 512 rows between two host transposes, adds the dense sum bias first, and
  reads the table row as a 25-term sum of equality bits times rows; the reference contracts with one dot_general, adds the
  bias last, and reads the row with a gather whose index it first shifts by 25 where negative and which the gather
  clamps into range. On the extended reals + and · are commutative and associative and 0 · x = 0, 0 + x = x for every
  x, so the dense sums agree and the 25-term sum is the one row; the code always lies in 0 … 24, so the shift and the
  clamp are the identity. No step uses that the inputs are finite.

  Cell.lean and CellLaws.lean hold one element's arithmetic and those laws; Planes.lean the whole arrays in both layouts
  (`features` is the common result); PlanesDenseA/B, PlanesTableA/B and PlanesBlock.lean read what the kernel body
  stores; PlanesRows.lean and PlanesArray.lean go from the 32 blocks to the whole output array; KernelRun.lean adds the
  two host transposes; RefFeatures.lean reads the reference. The frames of the two kernel programs are the generated
  ones; the reference's is its generated run with the result dropped; the idealization rewrote nothing.
-/
import proofs.«166924_j70798240907696_2_alg».proof.Defs
import proofs.«166924_j70798240907696_2_alg».proof.Proof.Gen.Kernel
import proofs.«166924_j70798240907696_2_alg».proof.Proof.Gen.Kernel.Skeleton
import proofs.«166924_j70798240907696_2_alg».proof.Proof.Gen.Kernel.Launch
import proofs.«166924_j70798240907696_2_alg».proof.Proof.Gen.Kernel.Points
import proofs.«166924_j70798240907696_2_alg».proof.Proof.Gen.Kernel.Frame
import proofs.«166924_j70798240907696_2_alg».proof.Proof.Gen.KernelIdeal
import proofs.«166924_j70798240907696_2_alg».proof.Proof.Gen.KernelIdeal.Skeleton
import proofs.«166924_j70798240907696_2_alg».proof.Proof.Gen.KernelIdeal.Launch
import proofs.«166924_j70798240907696_2_alg».proof.Proof.Gen.KernelIdeal.Points
import proofs.«166924_j70798240907696_2_alg».proof.Proof.Gen.KernelIdeal.Frame
import proofs.«166924_j70798240907696_2_alg».proof.Proof.Gen.ReferenceIdeal
import proofs.«166924_j70798240907696_2_alg».proof.Proof.Gen.ReferenceIdeal.Run
import proofs.«166924_j70798240907696_2_alg».proof.Proof.Gen.ReferenceIdeal.Read
import proofs.«166924_j70798240907696_2_alg».proof.Proof.Gen.Pre_finite_inputs
import proofs.«166924_j70798240907696_2_alg».proof.Proof.KernelRun
import proofs.«166924_j70798240907696_2_alg».proof.Proof.RefFeatures
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs, from memories that agree on the arguments, end with their results at `features` of the
    arguments. -/
theorem algebraic : Cert.algebraic_KernelIdeal_ReferenceIdeal := by
  intro m ρ m' ρ' _ hagree
  refine ⟨_, Cert.KernelIdeal.Planes.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.Features.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
